-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x256 : Shape := ⟨2, ![1024, 256]⟩
abbrev S256 : Shape := ⟨1, ![256]⟩
abbrev S256x1024 : Shape := ⟨2, ![256, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  reducesTo_S_S_d : S_.ReducesTo [] S_

variable [Facts]

def fn_part1 {F : FTy → Type} [FloatOps F] (main_arg4 : FVec F S256x1024 .f32) (main_arg5 : FVec F S1024 .f32) (main_arg6 : FVec F S_ .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1024 .f32 := Host.absf main_arg4
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S_ .f32 := Host.absf main_arg6
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  main_v32

def fn {F : FTy → Type} [FloatOps F] (main_arg0 : FVec F S8x4096x1024 .f32) (main_arg1 : FVec F S8x4096x1024 .f32) (main_arg2 : FVec F S1024x256 .f32) (main_arg3 : FVec F S256 .f32) (main_arg4 : FVec F S256x1024 .f32) (main_arg5 : FVec F S1024 .f32) (main_arg6 : FVec F S_ .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_v13 main_v16
-- ==== Kernel.lean ====
abbrev S8x4096x1024 : Shape := ⟨3, ![8, 4096, 1024]⟩
abbrev S1024x256 : Shape := ⟨2, ![1024, 256]⟩
abbrev S256 : Shape := ⟨1, ![256]⟩
abbrev S256x1024 : Shape := ⟨2, ![256, 1024]⟩
abbrev S1024 : Shape := ⟨1, ![1024]⟩
abbrev S_ : Shape := ⟨0, ![]⟩
abbrev S32768x1024 : Shape := ⟨2, ![32768, 1024]⟩
abbrev S1x256 : Shape := ⟨2, ![1, 256]⟩
abbrev S1x1024 : Shape := ⟨2, ![1, 1024]⟩
abbrev S1x1 : Shape := ⟨2, ![1, 1]⟩
abbrev S256x256 : Shape := ⟨2, ![256, 256]⟩

abbrev nBuf : Space → Nat
  | .hbm => 14
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x256, .f32⟩
  | .hbm, ⟨3, _⟩ => ⟨S256, .f32⟩
  | .hbm, ⟨4, _⟩ => ⟨S256x1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S1x256, .f32⟩
  | .hbm, ⟨10, _⟩ => ⟨S1x1024, .f32⟩
  | .hbm, ⟨11, _⟩ => ⟨S1x1, .f32⟩
  | .hbm, ⟨12, _⟩ => ⟨S32768x1024, .f32⟩
  | .hbm, ⟨13, _⟩ => ⟨S8x4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x256, .f32⟩
  | .local _ .vmem, ⟨5, _⟩ => ⟨S1x256, .f32⟩
  | .local _ .vmem, ⟨6, _⟩ => ⟨S256x1024, .f32⟩
  | .local _ .vmem, ⟨7, _⟩ => ⟨S1x1024, .f32⟩
  | .local _ .vmem, ⟨8, _⟩ => ⟨S1x1, .f32⟩
  | .local _ .vmem, ⟨9, _⟩ => ⟨S256x1024, .f32⟩
  | .local _ .vmem, ⟨10, _⟩ => ⟨S256x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S8x4096x1024_S32768x1024 : S8x4096x1024.ShapeCasts S32768x1024
  shapeCasts_S256_S1x256 : S256.ShapeCasts S1x256
  shapeCasts_S1024_S1x1024 : S1024.ShapeCasts S1x1024
  shapeCasts_S_S1x1 : S_.ShapeCasts S1x1
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x256_S1024x256_0_0 : ∀ a, (![0, 0] : Fin 2 → Nat) a + S1024x256.size a ≤ S1024x256.size a
  h_S1024x256 : 0 < S1024x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  bitsLt_bf16_f32 : FTy.bits .bf16 < FTy.bits .f32
  broadcasts_S1x256_S256x256 : S1x256.Broadcasts S256x256
  broadcasts_S1x1024_S256x1024 : S1x1024.Broadcasts S256x1024
  shapeCasts_S32768x1024_S8x4096x1024 : S32768x1024.ShapeCasts S8x4096x1024
  dot_S256x1024_S1024x256_S256x256_1_0_0_1_n_n_wf : DotDims.WF S256x1024 S1024x256 S256x256 [1] [0] [0] [1] [] []
  dot_S256x256_S256x1024_S256x1024_1_0_0_1_n_n_wf : DotDims.WF S256x256 S256x1024 S256x1024 [1] [0] [0] [1] [] []
  dot_S256x1024_S256x1024_S256x256_1_1_0_0_n_n_wf : DotDims.WF S256x1024 S256x1024 S256x256 [1] [1] [0] [0] [] []
  dot_S256x256_S1024x256_S256x1024_1_1_0_0_n_n_wf : DotDims.WF S256x256 S1024x256 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S1024x256.size a
  hwx0_2 : ∀ i : grid0.Coords, EltTy.bits .f32 = 32 ∨ (Rect.block (s := S1024x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .f32 = 32 ∨ (Rect.block (s := S256x1024) S256x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S32768x1024.size a
  hwx0_7 : ∀ i : grid0.Coords, EltTy.bits .f32 = 32 ∨ (Rect.block (s := S32768x1024) S256x1024.size (cc0_transform_7 i) (hinb0_7 i)).WholeWords (EltTy.packing .f32)

variable [Facts₀]

def dot_S256x1024_S1024x256_S256x256_1_0_0_1_n_n : DotDims S256x1024 S1024x256 S256x256 where
  lhsContracting := [1]
  rhsContracting := [0]
  lhsNonContracting := [0]
  rhsNonContracting := [1]
  lhsBatch := []
  rhsBatch := []
  wf := dot_S256x1024_S1024x256_S256x256_1_0_0_1_n_n_wf
def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S256x1024_S256x256_1_1_0_0_n_n : DotDims S256x1024 S256x1024 S256x256 where
  lhsContracting := [1]
  rhsContracting := [1]
  lhsNonContracting := [0]
  rhsNonContracting := [0]
  lhsBatch := []
  rhsBatch := []
  wf := dot_S256x1024_S256x1024_S256x256_1_1_0_0_n_n_wf
def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S256x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x256 : Shape := ⟨2, ![1024, 256]⟩
abbrev S256 : Shape := ⟨1, ![256]⟩
abbrev S256x1024 : Shape := ⟨2, ![256, 1024]⟩
abbrev S1024 : Shape := ⟨1, ![1024]⟩
abbrev S_ : Shape := ⟨0, ![]⟩
abbrev S8x4096x256 : Shape := ⟨3, ![8, 4096, 256]⟩
abbrev S1x1x256 : Shape := ⟨3, ![1, 1, 256]⟩
abbrev S1x1x1024 : Shape := ⟨3, ![1, 1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x256, .f32⟩
  | .hbm, ⟨3, _⟩ => ⟨S256, .f32⟩
  | .hbm, ⟨4, _⟩ => ⟨S256x1024, .f32⟩
  | .hbm, ⟨5, _⟩ => ⟨S1024, .f32⟩
  | .hbm, ⟨6, _⟩ => ⟨S_, .f32⟩
  | .hbm, ⟨7, _⟩ => ⟨S8x4096x256, .f32⟩
  | .hbm, ⟨8, _⟩ => ⟨S1x1x256, .f32⟩
  | .hbm, ⟨9, _⟩ => ⟨S8x4096x256, .f32⟩
  | .hbm, ⟨10, _⟩ => ⟨S8x4096x256, .f32⟩
  | .hbm, ⟨11, _⟩ => ⟨S_, .f32⟩
  | .hbm, ⟨12, _⟩ => ⟨S8x4096x256, .f32⟩
  | .hbm, ⟨13, _⟩ => ⟨S8x4096x256, .f32⟩
  | .hbm, ⟨14, _⟩ => ⟨S_, .f32⟩
  | .hbm, ⟨15, _⟩ => ⟨S8x4096x256, .f32⟩
  | .hbm, ⟨16, _⟩ => ⟨S8x4096x256, .i1⟩
  | .hbm, ⟨17, _⟩ => ⟨S_, .f32⟩
  | .hbm, ⟨18, _⟩ => ⟨S8x4096x256, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096x1024, .f32⟩
  | .hbm, ⟨27, _⟩ => ⟨S8x4096x1024, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S8x4096x1024, .f32⟩
  | .hbm, ⟨55, _⟩ => ⟨S8x4096x1024, .f32⟩
  | .hbm, ⟨56, _⟩ => ⟨S8x4096x256, .f32⟩
  | .hbm, ⟨57, _⟩ => ⟨S_, .f32⟩
  | .hbm, ⟨58, _⟩ => ⟨S8x4096x256, .f32⟩
  | .hbm, ⟨59, _⟩ => ⟨S8x4096x256, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_cst : Ref sig .tc := ⟨.hbm, 11, rfl⟩
abbrev main_call0_v0 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_cst_7 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_cst_9 : Ref sig .tc := ⟨.hbm, 45, rfl⟩
abbrev main_v26 : Ref sig .tc := ⟨.hbm, 46, rfl⟩
abbrev main_cst_10 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_11 : Ref sig .tc := ⟨.hbm, 51, rfl⟩
abbrev main_cst_12 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_13 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S8x4096x256_0_1_2 : S1x1x256.BroadcastsInDim S8x4096x256 (![0, 1, 2] : Fin 3 → Fin S8x4096x256.rank)
  bcast_S_S8x4096x256 : S_.BroadcastsInDim S8x4096x256 (![] : Fin 0 → Fin S8x4096x256.rank)
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  dot_S8x4096x1024_S1024x256_S8x4096x256_2_0_01_1_n_n_wf : DotDims.WF S8x4096x1024 S1024x256 S8x4096x256 [2] [0] [0, 1] [1] [] []
  dot_S8x4096x256_S256x1024_S8x4096x1024_2_0_01_1_n_n_wf : DotDims.WF S8x4096x256 S256x1024 S8x4096x1024 [2] [0] [0, 1] [1] [] []
  dot_S8x4096x1024_S256x1024_S8x4096x256_2_1_01_0_n_n_wf : DotDims.WF S8x4096x1024 S256x1024 S8x4096x256 [2] [1] [0, 1] [0] [] []
  dot_S8x4096x256_S1024x256_S8x4096x1024_2_1_01_0_n_n_wf : DotDims.WF S8x4096x256 S1024x256 S8x4096x1024 [2] [1] [0, 1] [0] [] []

variable [Facts₀]

def dot_S8x4096x1024_S1024x256_S8x4096x256_2_0_01_1_n_n : DotDims S8x4096x1024 S1024x256 S8x4096x256 where
  lhsContracting := [2]
  rhsContracting := [0]
  lhsNonContracting := [0, 1]
  rhsNonContracting := [1]
  lhsBatch := []
  rhsBatch := []
  wf := dot_S8x4096x1024_S1024x256_S8x4096x256_2_0_01_1_n_n_wf
def dot_S8x4096x256_S256x1024_S8x4096x1024_2_0_01_1_n_n : DotDims S8x4096x256 S256x1024 S8x4096x1024 where
  lhsContracting := [2]
  rhsContracting := [0]
  lhsNonContracting := [0, 1]
  rhsNonContracting := [1]
  lhsBatch := []
  rhsBatch := []
  wf := dot_S8x4096x256_S256x1024_S8x4096x1024_2_0_01_1_n_n_wf
def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf
def dot_S8x4096x256_S1024x256_S8x4096x1024_2_1_01_0_n_n : DotDims S8x4096x256 S1024x256 S8x4096x1024 where
  lhsContracting := [2]
  rhsContracting := [1]
  lhsNonContracting := [0, 1]
  rhsNonContracting := [0]
  lhsBatch := []
  rhsBatch := []
  wf := dot_S8x4096x256_S1024x256_S8x4096x1024_2_1_01_0_n_n_wf

class Facts : Prop extends Facts₀ where

variable [Facts]
-- ==== Proof.Spec.lean ====
/-
  One gradient-descent step on the squared reconstruction error of a two-layer perceptron, for ONE token row, written
  over the extended reals in the two arrangements that are compared.

  A row `x` (1024 entries) is mapped to 256 hidden units `hidden d = (∑ k, x k · w1 k d) + c1 d`, rectified, and mapped
  back to 1024 entries `(∑ d, relu d · w2 d j) + c2 j`; the residual against the target row `y` is propagated back through
  the second layer (`∑ j, · · w2 d j`), gated by "the hidden unit was positive", and through the first (`∑ d, · · w1 k d`).
  The new row is `x k − σ · (gradient k)`.

  * `fusedRow` scales the back-propagated gradient ONCE, at the end, by the word `0x33800000` (2⁻²⁴ = 2/N for
    N = 8·4096·1024 entries), and rectifies by a select on the gate;
  * `autodiffRow` scales the residual FIRST, by `(1/N)·(2·residual)` with N the word `0x4C000000` (2²⁵), rectifies by a
    maximum with zero, and adds the gradient of a penalty `λ·mean((x − x)²)` taken at the point itself,
    `((λ·1)/N)·(2·(x k − x k))`, which vanishes on a finite row.

  Float words are kept as words: the same word on both sides is never evaluated.
-/
import Idealize.ShloMosaic.PureOps.Ideal
import Idealize.ShloMosaic.Lib.ValueIdx

noncomputable section

namespace Cert.TwoLayerStep

open Idealize.ShloMosaic
open scoped BigOperators

/-- The value of the zero word. -/
abbrev zeroW : EReal := Ideal.ofBits .f32 0x00000000#32
/-- 2⁻²⁴, the fused arrangement's one scale. -/
abbrev scaleW : EReal := Ideal.ofBits .f32 0x33800000#32
/-- 2, 1, 2²⁵ and the penalty weight, the words of the differentiated arrangement. -/
abbrev twoW : EReal := Ideal.ofBits .f32 0x40000000#32
abbrev oneW : EReal := Ideal.ofBits .f32 0x3F800000#32
abbrev countW : EReal := Ideal.ofBits .f32 0x4C000000#32
abbrev lambdaW : EReal := Ideal.ofBits .f32 0x3C23D70A#32

section Row

variable (x y : Fin 1024 → EReal) (w1 : Fin 1024 → Fin 256 → EReal) (c1 : Fin 256 → EReal)
  (w2 : Fin 256 → Fin 1024 → EReal) (c2 : Fin 1024 → EReal) (σ : EReal)

/-- The hidden layer before rectification. -/
def hidden (d : Fin 256) : EReal := (∑ k : Fin 1024, x k * w1 k d) + c1 d

/-- The one-bit word of "hidden unit `d` is positive". -/
def gate (d : Fin 256) : BitVec 1 := Ideal.cmp .ogt (hidden x w1 c1 d) zeroW

/-! ### The fused arrangement -/

/-- Rectification by a select on the gate. -/
def reluSel (d : Fin 256) : EReal := Scalar.select (gate x w1 c1 d) (hidden x w1 c1 d) zeroW

/-- The reconstruction's residual against the target row. -/
def residualSel (j : Fin 1024) : EReal := ((∑ d : Fin 256, reluSel x w1 c1 d * w2 d j) + c2 j) - y j

/-- The residual carried back to the hidden units and gated. -/
def backSel (d : Fin 256) : EReal :=
  Scalar.select (gate x w1 c1 d) (∑ j : Fin 1024, residualSel x y w1 c1 w2 c2 j * w2 d j) zeroW

/-- … and back to the row's entries. -/
def gradSel (k : Fin 1024) : EReal := ∑ d : Fin 256, backSel x y w1 c1 w2 c2 d * w1 k d

/-- The fused step: the gradient scaled once, by 2⁻²⁴. -/
def fusedRow (k : Fin 1024) : EReal := x k - σ * (gradSel x y w1 c1 w2 c2 k * scaleW)

/-! ### The differentiated arrangement -/

/-- Rectification by a maximum with zero. -/
def reluMax (d : Fin 256) : EReal := max (hidden x w1 c1 d) zeroW

def residualMax (j : Fin 1024) : EReal := ((∑ d : Fin 256, reluMax x w1 c1 d * w2 d j) + c2 j) - y j

/-- The residual's cotangent: `(1/N) · (2 · residual)`. -/
def cotangent (j : Fin 1024) : EReal := Ideal.div oneW countW * (twoW * residualMax x y w1 c1 w2 c2 j)

def backMax (d : Fin 256) : EReal :=
  Scalar.select (gate x w1 c1 d) (∑ j : Fin 1024, cotangent x y w1 c1 w2 c2 j * w2 d j) zeroW

def gradMax (k : Fin 1024) : EReal := ∑ d : Fin 256, backMax x y w1 c1 w2 c2 d * w1 k d

/-- The penalty's gradient at the point itself: `((λ·1)/N) · (2 · (x k − x k))`. -/
def penaltyGrad (k : Fin 1024) : EReal := Ideal.div (lambdaW * oneW) countW * (twoW * (x k - x k))

/-- The differentiated step. -/
def autodiffRow (k : Fin 1024) : EReal := x k - σ * (penaltyGrad x k + gradMax x y w1 c1 w2 c2 k)

end Row

end Cert.TwoLayerStep

end
-- ==== Proof.LibNonnegDistrib.lean ====
/-
  Multiplication by a nonnegative finite extended real distributes over every finite sum of extended reals, whatever
  the summands are: on the extended reals a product distributes over a sum as soon as the factor is nonnegative and is
  not +∞ (the one sum that is not a sum of reals, +∞ + −∞ = −∞, is kept by such a factor: a positive one keeps both
  infinities, and zero sends every term and the sum to zero). Nothing is asked of the summands, so no finiteness of the
  arrays that supply them is needed.

  From it, the row law of a degree-normalised neighbourhood sum: scaling the neighbours before they are added up and
  the total afterwards, or scaling each neighbour by both factors before adding, give the same row.
-/
import Idealize.ShloMosaic.PureOps.Ideal.Laws

noncomputable section

namespace Cert.NonnegDistrib

open scoped BigOperators

/-- A nonnegative factor that is not +∞ goes inside a finite sum of arbitrary extended reals. -/
theorem mul_sum {ι : Type*} (t : Finset ι) (a : EReal) (ha : 0 ≤ a) (ha' : a ≠ ⊤) (f : ι → EReal) :
    a * ∑ i ∈ t, f i = ∑ i ∈ t, a * f i := by
  classical
  refine Finset.induction_on t ?_ ?_
  · simp
  · intro i t hi ih
    rw [Finset.sum_insert hi, Finset.sum_insert hi, EReal.left_distrib_of_nonneg_of_ne_top ha ha', ih]

/-- THE ROW LAW. For one row with normalising factor `σ` (nonnegative, not +∞), neighbours `e ∈ t` contributing the
    value `g e` with the neighbour's own factor `k e`, and the row's own value `v`:
    `σ · ((0 + Σ g e · k e) + v · σ) = (0 + Σ g e · (k e · σ)) + v · (σ · σ)`. -/
theorem row_law {ι : Type*} (t : Finset ι) (σ : EReal) (hσ : 0 ≤ σ) (hσ' : σ ≠ ⊤) (g k : ι → EReal) (v : EReal) :
    σ * ((0 + ∑ e ∈ t, g e * k e) + v * σ) = (0 + ∑ e ∈ t, g e * (k e * σ)) + v * (σ * σ) := by
  rw [EReal.left_distrib_of_nonneg_of_ne_top hσ hσ', zero_add, zero_add, mul_sum t σ hσ hσ']
  congr 1
  · refine Finset.sum_congr rfl fun e _ => ?_
    rw [mul_left_comm, mul_comm σ (k e)]
  · rw [mul_left_comm]

end Cert.NonnegDistrib
-- ==== Proof.Law.lean ====
/-
  The two arrangements of the gradient step agree on a finite row.

  The differentiated arrangement multiplies the residual by `(1/N)·2` before it is carried back; `(1/N)·2` is the real
  number 2⁻²⁴, nonnegative and finite, and such a factor commutes with everything on the way back: with a product (the
  extended reals' multiplication is associative and commutative), with a finite sum of ARBITRARY extended reals, and with a
  select against zero. So it can be taken out of both contractions and applied once at the end, as the fused arrangement
  does; nothing is asked of the residual, the weights or the target. A maximum with zero is the select on "positive".
  The penalty's gradient `c · (2 · (x − x))` is `c · (2 · 0) = 0` as soon as `x` is a real number — the one place a
  finite input is used (at an infinity `x − x` is not zero).
-/
import Idealize.ShloMosaic.PureOps.Ideal.Laws
import proofs.«106871_j59133109731575_1_alg».proof.Proof.Spec
import proofs.«106871_j59133109731575_1_alg».proof.Proof.LibNonnegDistrib

noncomputable section

namespace Cert.TwoLayerStep

open Idealize.ShloMosaic
open scoped BigOperators

/-! ## The words' values -/

theorem zeroW_eq : zeroW = 0 := by
  simp [Ideal.ofBits, Ideal.ieee]

theorem scaleW_eq : scaleW = (((1 : ℝ) / 16777216 : ℝ) : EReal) := by
  simp [Ideal.ofBits, Ideal.ieee, -EReal.coe_mul]; norm_num

theorem twoW_eq : twoW = ((2 : ℝ) : EReal) := by
  simp [Ideal.ofBits, Ideal.ieee, -EReal.coe_mul]; norm_num

theorem oneW_eq : oneW = ((1 : ℝ) : EReal) := by
  simp [Ideal.ofBits, Ideal.ieee, -EReal.coe_mul]; norm_num

theorem countW_eq : countW = ((33554432 : ℝ) : EReal) := by
  simp [Ideal.ofBits, Ideal.ieee, -EReal.coe_mul]; norm_num

theorem scaleW_nonneg : 0 ≤ scaleW := by
  rw [scaleW_eq]; exact_mod_cast (by norm_num : (0 : ℝ) ≤ 1 / 16777216)

theorem scaleW_ne_top : scaleW ≠ ⊤ := by
  rw [scaleW_eq]; exact EReal.coe_ne_top _

/-- `(1/N) · (2 · r) = 2⁻²⁴ · r` for every extended real `r`. -/
theorem div_count_two_mul (r : EReal) : Ideal.div oneW countW * (twoW * r) = scaleW * r := by
  rw [countW_eq, Ideal.div_coe (by norm_num : (33554432 : ℝ) ≠ 0), oneW_eq, twoW_eq, scaleW_eq, ← mul_assoc,
    ← EReal.coe_mul, ← EReal.coe_mul]
  norm_num

/-! ## Selects and the maximum -/

/-- A maximum with zero is the select on "positive". -/
theorem max_zero_eq_select (h : EReal) : max h zeroW = Scalar.select (Ideal.cmp .ogt h zeroW) h zeroW := by
  rw [zeroW_eq]
  by_cases hp : (0 : EReal) < h
  · have e : Ideal.cmp .ogt h 0 = 1#1 := by simp [Ideal.cmp, hp]
    rw [e, max_eq_left hp.le]; rfl
  · have e : Ideal.cmp .ogt h 0 = 0#1 := by simp [Ideal.cmp, hp]
    rw [e, max_eq_right (not_lt.mp hp)]; rfl

/-- A factor goes inside a select against zero. -/
theorem mul_select_zero (g : BitVec 1) (a X : EReal) : Scalar.select g (a * X) zeroW = a * Scalar.select g X zeroW := by
  rcases BitVec.eq_zero_or_eq_one g with h | h <;> subst h
  · show zeroW = a * zeroW
    rw [zeroW_eq, mul_zero]
  · rfl

/-! ## The law -/

section Row

variable (x y : Fin 1024 → EReal) (w1 : Fin 1024 → Fin 256 → EReal) (c1 : Fin 256 → EReal)
  (w2 : Fin 256 → Fin 1024 → EReal) (c2 : Fin 1024 → EReal) (σ : EReal)

theorem reluMax_eq (d : Fin 256) : reluMax x w1 c1 d = reluSel x w1 c1 d := by
  unfold reluMax reluSel gate
  exact max_zero_eq_select _

theorem residualMax_eq (j : Fin 1024) : residualMax x y w1 c1 w2 c2 j = residualSel x y w1 c1 w2 c2 j := by
  unfold residualMax residualSel
  simp only [reluMax_eq]

theorem cotangent_eq (j : Fin 1024) : cotangent x y w1 c1 w2 c2 j = scaleW * residualSel x y w1 c1 w2 c2 j := by
  unfold cotangent
  rw [div_count_two_mul, residualMax_eq]

theorem backMax_eq (d : Fin 256) : backMax x y w1 c1 w2 c2 d = scaleW * backSel x y w1 c1 w2 c2 d := by
  unfold backMax backSel
  rw [← mul_select_zero, Cert.NonnegDistrib.mul_sum _ _ scaleW_nonneg scaleW_ne_top]
  congr 1
  refine Finset.sum_congr rfl fun j _ => ?_
  rw [cotangent_eq, mul_assoc]

theorem gradMax_eq (k : Fin 1024) : gradMax x y w1 c1 w2 c2 k = scaleW * gradSel x y w1 c1 w2 c2 k := by
  unfold gradMax gradSel
  rw [Cert.NonnegDistrib.mul_sum _ _ scaleW_nonneg scaleW_ne_top]
  refine Finset.sum_congr rfl fun d _ => ?_
  rw [backMax_eq, mul_assoc]

theorem penaltyGrad_eq_zero (k : Fin 1024) (hx : ∃ r : ℝ, x k = (r : EReal)) : penaltyGrad x k = 0 := by
  obtain ⟨r, hr⟩ := hx
  unfold penaltyGrad
  rw [hr, ← EReal.coe_sub, sub_self, EReal.coe_zero, mul_zero, mul_zero]

/-- THE LAW: on a row whose entry `k` is a real number the differentiated step is the fused step. -/
theorem autodiffRow_eq_fusedRow (k : Fin 1024) (hx : ∃ r : ℝ, x k = (r : EReal)) :
    autodiffRow x y w1 c1 w2 c2 σ k = fusedRow x y w1 c1 w2 c2 σ k := by
  unfold autodiffRow fusedRow
  rw [penaltyGrad_eq_zero x k hx, zero_add, gradMax_eq, mul_comm scaleW]

end Row

end Cert.TwoLayerStep

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.Finite.lean ====
/-
  The precondition read back for the one input the proof needs finite: when "every float input has absolute value below
  +∞" holds, every entry of the state array is a real number.

  The precondition is one bit: the conjunction, input by input, of "all entries satisfy |x| < +∞". A conjunction that is
  1 has both conjuncts 1, so the first input's clause is 1; a conjunction over all entries that is 1 has every entry's
  comparison 1; and an extended real whose absolute value is below ⊤ is a real number.
-/
import proofs.«106871_j59133109731575_1_alg».proof.Pre_finite_inputs
import proofs.«106871_j59133109731575_1_alg».proof.Proof.Gen.Pre_finite_inputs
import proofs.«106871_j59133109731575_1_alg».proof.Proof.LibFiniteInputs
import Idealize.ShloMosaic.Lib.Affine
import Idealize.ShloMosaic.Lib.ValueIdx
import Idealize.ShloMosaic.Lib.Pipeline.Value

noncomputable section

namespace Cert.Pre_finite_inputs.Reading

open Idealize.ShloMosaic Cert.Pre_finite_inputs

/-- The scalar shape has one index. -/
instance : Subsingleton S_.Idx := ⟨fun a b => funext fun d => d.elim0⟩

/-- Under the precondition every entry of the first input is a real number. -/
theorem state_real (a0 a1 : FVec Ideal S8x4096x1024 .f32) (a2 : FVec Ideal S1024x256 .f32) (a3 : FVec Ideal S256 .f32)
    (a4 : FVec Ideal S256x1024 .f32) (a5 : FVec Ideal S1024 .f32) (a6 : FVec Ideal S_ .f32)
    (h : fn (F := Ideal) a0 a1 a2 a3 a4 a5 a6 = fun _ => 1#1) (i : S8x4096x1024.Idx) : ∃ r : ℝ, a0 i = (r : EReal) := by
  have h0 := congrFun h ValueIdx.ix0
  dsimp only [fn, fn_part1] at h0
  obtain ⟨e5, -⟩ := IntOp.andi_eq_one.mp h0
  obtain ⟨e4, -⟩ := IntOp.andi_eq_one.mp e5
  obtain ⟨e3, -⟩ := IntOp.andi_eq_one.mp e4
  obtain ⟨e2, -⟩ := IntOp.andi_eq_one.mp e3
  obtain ⟨e1, -⟩ := IntOp.andi_eq_one.mp e2
  obtain ⟨e0, -⟩ := IntOp.andi_eq_one.mp e1
  refine Cert.FiniteInputs.all_real_of_all_finite a0 _ (fun j => ?_) _ _ _ ValueIdx.ix0 e0 i
  exact (broadcastInDim_apply _ Facts.bcast_S_S8x4096x1024 _ j ValueIdx.ix0 (fun a => a.elim0)).trans
    Cert.FiniteInputs.ofBits_f32_inf

end Cert.Pre_finite_inputs.Reading

end
-- ==== Proof.LibDenseRows.lean ====
/-
  Row-wise dense algebra read at an index given by coordinates, at the ideal values: a plain two-dimensional
  contraction `[M, K] · [K, N]` (the kernel's matrix product into a zero accumulator and the host's `dot_general`) as a sum
  over `k : Fin K` of the left operand's row times the right operand's column; a bias vector `[N]` laid along every row of
  `[M, N]` (both spellings: cast to one row then broadcast, and two `broadcast_in_dim`s); a concatenation of two blocks side
  by side along the columns; and a sum along the columns of `[M, N]` (the lane reduction and the host's `reduce`), plain
  and laid back out as a column `[M, 1]` that is broadcast over the columns.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Cert.DenseRows

open Idealize.ShloMosaic Idealize.ShloMosaic.ValueIdx
open scoped BigOperators

/-! ## A plain contraction `[M, K] · [K, N]` -/

/-- For dimension numbers that contract the left operand's columns with the right operand's rows and keep the left rows and
    the right columns in place, the sum over the contraction index at `(r, c)` is the sum over `k : Fin K` of the left
    operand at `(r, k)` times the right operand at `(k, c)`. -/
theorem sum_contr_plain {M K N : ℕ} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : (⟨2, ![M, K]⟩ : Shape).Idx → EReal) (W : (⟨2, ![K, N]⟩ : Shape).Idx → EReal) (r : Fin M) (c : Fin N) :
    ∑ k : D.contr.Idx, A (D.lhsIdx (ix2 r c) k) * W (D.rhsIdx (ix2 r c) k) = ∑ k : Fin K, A (ix2 r k) * W (ix2 k c) := by
  rw [← Equiv.sum_comp (contrEquiv1 D K hrank hsize).symm]
  refine Finset.sum_congr rfl fun k _ => ?_
  have e1 : D.lhsIdx (ix2 r c) ((contrEquiv1 D K hrank hsize).symm k) = ix2 r k := by
    funext a; apply Fin.ext
    match a with
    | ⟨0, _⟩ => exact hl0 _ _
    | ⟨1, _⟩ => exact (D.lhsIdx_val_of_single hl _ _).trans (contrEquiv1_symm_val D K hrank hsize k)
  have e2 : D.rhsIdx (ix2 r c) ((contrEquiv1 D K hrank hsize).symm k) = ix2 k c := by
    funext a; apply Fin.ext
    match a with
    | ⟨0, _⟩ => exact (D.rhsIdx_val_of_single hr _ _).trans (contrEquiv1_symm_val D K hrank hsize k)
    | ⟨1, _⟩ => exact hr1 _ _
  rw [e1, e2]

/-- The kernel's matrix product into the zero accumulator, at `(r, c)`. -/
theorem matmul_zero_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    matmul D none A W (constant (F := Ideal) ⟨2, ![M, N]⟩ .f32 0x00000000#32) (ix2 r c) = ∑ k : Fin K, A (ix2 r k) * W (ix2 k c) :=
  (Ideal.matmul_constant_zero_apply D none A W (ix2 r c)).trans (sum_contr_plain D hl hr hrank hsize hl0 hr1 A W r c)

/-- The host's `dot_general` with the same dimension numbers, at `(r, c)`. -/
theorem dotGeneral_plain_apply {M K N : ℕ} {φ₁ φ₂ : FTy} (D : DotDims ⟨2, ![M, K]⟩ ⟨2, ![K, N]⟩ ⟨2, ![M, N]⟩)
    (hl : D.lhsContracting = [(1 : Fin 2)]) (hr : D.rhsContracting = [(0 : Fin 2)])
    (hrank : D.contr.rank = 1) (hsize : D.contr.size ⟨0, by omega⟩ = K)
    (hl0 : ∀ j k, (D.lhsIdx j k (0 : Fin 2)).val = (j (0 : Fin 2)).val)
    (hr1 : ∀ j k, (D.rhsIdx j k (1 : Fin 2)).val = (j (1 : Fin 2)).val)
    (A : FVec Ideal ⟨2, ![M, K]⟩ φ₁) (W : FVec Ideal ⟨2, ![K, N]⟩ φ₂) (r : Fin M) (c : Fin N) :
    Host.dotGeneral D none A W (ix2 r c) = ∑ k : Fin K, A (ix2 r k) * W (ix2 k c) :=
  (Ideal.dotGeneral_apply D none .single A W (ix2 r c)).trans (sum_contr_plain D hl hr hrank hsize hl0 hr1 A W r c)

/-! ## A bias vector along every row -/

variable {α : Type}

/-- A vector `[N]` cast to one row `[1, N]` and broadcast down `M` rows reads, at `(r, c)`, the vector at `c`. -/
theorem rowBias_cast_apply {M N : ℕ} (b : (⟨1, ![N]⟩ : Shape).Idx → α) (h1 : (⟨1, ![N]⟩ : Shape).ShapeCasts ⟨2, ![1, N]⟩)
    (h2 : (⟨2, ![1, N]⟩ : Shape).Broadcasts ⟨2, ![M, N]⟩) (r : Fin M) (c : Fin N) :
    broadcastTo ⟨2, ![M, N]⟩ (shapeCast ⟨2, ![1, N]⟩ b h1) h2 (ix2 r c) = b (ix1 c) :=
  (broadcastTo_1b_ab_apply _ h2 r c).trans (shapeCast_a_1a_apply b h1 0 c)

/-- A vector `[N]` placed on axis 1 of `[1, N]` reads, at `(u, c)`, the vector at `c`. -/
theorem broadcastInDim_a_1a_apply {N : ℕ} (b : (⟨1, ![N]⟩ : Shape).Idx → α)
    (h : (⟨1, ![N]⟩ : Shape).BroadcastsInDim ⟨2, ![1, N]⟩ ![1]) (u : Fin 1) (c : Fin N) :
    broadcastInDim ⟨2, ![1, N]⟩ ![1] h b (ix2 u c) = b (ix1 c) := by
  refine broadcastInDim_apply ![1] h b (ix2 u c) (ix1 c) fun a => ?_
  match a with
  | ⟨0, _⟩ =>
    show c.val = if N = 1 then 0 else c.val
    split
    · have := c.isLt; omega
    · rfl

/-- The host's spelling of the same: two `broadcast_in_dim`s, `[N]` to `[1, N]` to `[M, N]`. -/
theorem rowBias_inDim_apply {M N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (c : Fin N) :
    broadcastInDim ⟨2, ![M, N]⟩ ![0, 1] h2 (broadcastInDim ⟨2, ![1, N]⟩ ![1] h1 b) (ix2 r c) = b (ix1 c) :=
  (broadcastInDim_oneRow_apply h2 _ r c).trans (broadcastInDim_a_1a_apply b h1 0 c)

/-! ## Two blocks side by side -/

/-- Two blocks `[M, A]` and `[M, B]` concatenated along the columns: a column left of `A` reads the first block. -/
theorem concat_cols_left {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : k.val < A) :
    concatenate ⟨2, ![M, C]⟩ (1 : Fin 2) [⟨⟨2, ![M, A]⟩, x⟩, ⟨⟨2, ![M, B]⟩, y⟩] h (ix2 r k) = x (ix2 r ⟨k.val, hk⟩) :=
  concatenate_pair_apply_left (1 : Fin 2) x y h (ix2 r k) rfl (ix2 r ⟨k.val, hk⟩) fun b => by
    match b with
    | ⟨0, _⟩ => rfl
    | ⟨1, _⟩ => rfl

/-- … and a column from `A` on reads the second block, `A` columns to the left. -/
theorem concat_cols_right {M A B C : ℕ} (x : (⟨2, ![M, A]⟩ : Shape).Idx → α) (y : (⟨2, ![M, B]⟩ : Shape).Idx → α)
    (h : Shape.Concatenates [⟨2, ![M, A]⟩, ⟨2, ![M, B]⟩] ⟨2, ![M, C]⟩ (1 : Fin 2)) (r : Fin M) (k : Fin C) (hk : A ≤ k.val)
    (hk' : k.val - A < B) :
    concatenate ⟨2, ![M, C]⟩ (1 : Fin 2) [⟨⟨2, ![M, A]⟩, x⟩, ⟨⟨2, ![M, B]⟩, y⟩] h (ix2 r k) = y (ix2 r ⟨k.val - A, hk'⟩) :=
  concatenate_pair_apply_right (1 : Fin 2) x y h (ix2 r k) rfl rfl (ix2 r ⟨k.val - A, hk'⟩)
    (fun b hb => by
      match b with
      | ⟨0, _⟩ => rfl
      | ⟨1, _⟩ => exact absurd rfl hb)
    (by show k.val - A + A = k.val; omega)

/-! ## A sum along the columns -/

/-- The lane reduction of `[M, N]` along its columns from the zero word, at row `r`. -/
theorem laneSum_apply {M N : ℕ} (src : FVec Ideal ⟨2, ![M, N]⟩ .f32) (h : (⟨2, ![M, N]⟩ : Shape).Reduces [(1 : Fin 2)] ⟨1, ![M]⟩)
    (hφ : FKind.Formats .f32) (hacc : (0x00000000#32 : BitVec 32) = FKind.add.neutral .f32 hφ)
    (hlift : ∀ (r : Fin M) (k : Fin N), h.lift (ix1 r) k = ix2 r k) (r : Fin M) :
    multiReduction .add [(1 : Fin 2)] ⟨1, ![M]⟩ src 0x00000000#32 h hφ hacc (ix1 r) = ∑ k : Fin N, src (ix2 r k) :=
  (Ideal.multiReduction_add_single src 0x00000000#32 h hφ hacc (ix1 r)).trans
    (Finset.sum_congr rfl fun k _ => congrArg src (hlift r k))

/-- The host's `reduce` with `add` along the columns from an initial scalar, at row `r`. -/
theorem hostRowSum_apply {M N : ℕ} (x : FVec Ideal ⟨2, ![M, N]⟩ .f32) (init : (⟨0, ![]⟩ : Shape).Idx → Ideal .f32)
    (h' : (⟨2, ![M, N]⟩ : Shape).ReducesTo [(1 : Fin 2)] ⟨1, ![M]⟩) (hu : 0 < (⟨0, ![]⟩ : Shape).numel)
    (h : (⟨2, ![M, N]⟩ : Shape).Reduces [(1 : Fin 2)] ⟨1, ![M]⟩)
    (hlift : ∀ (r : Fin M) (k : Fin N), h.lift (ix1 r) k = ix2 r k) (r : Fin M) :
    Host.reduceAdd x init h' hu (ix1 r) = init (Shape.Idx.first hu) + ∑ k : Fin N, x (ix2 r k) :=
  (hostReduceAdd_apply x init h' hu (ix1 r)).trans
    ((Ideal.hostReduceAdd_single h' h x _ (ix1 r)).trans
      (congrArg (init (Shape.Idx.first hu) + ·) (Finset.sum_congr rfl fun k _ => congrArg x (hlift r k))))

/-- A vector `[M]` placed on axis 0 of `[M, 1]` reads, at `(r, u)`, the vector at `r`. -/
theorem broadcastInDim_a_a1_apply {M : ℕ} (v : (⟨1, ![M]⟩ : Shape).Idx → α)
    (h : (⟨1, ![M]⟩ : Shape).BroadcastsInDim ⟨2, ![M, 1]⟩ ![0]) (r : Fin M) (u : Fin 1) :
    broadcastInDim ⟨2, ![M, 1]⟩ ![0] h v (ix2 r u) = v (ix1 r) := by
  refine broadcastInDim_apply ![0] h v (ix2 r u) (ix1 r) fun a => ?_
  match a with
  | ⟨0, _⟩ =>
    show r.val = if M = 1 then 0 else r.val
    split
    · have := r.isLt; omega
    · rfl

/-- A column `[M, 1]` laid over the columns of `[M, N]` by `broadcast_in_dim` reads, at `(r, c)`, the column at row `r`. -/
theorem broadcastInDim_a1_ab_apply {M N : ℕ} (v : (⟨2, ![M, 1]⟩ : Shape).Idx → α)
    (h : (⟨2, ![M, 1]⟩ : Shape).BroadcastsInDim ⟨2, ![M, N]⟩ ![0, 1]) (r : Fin M) (c : Fin N) :
    broadcastInDim ⟨2, ![M, N]⟩ ![0, 1] h v (ix2 r c) = v (ix2 r (0 : Fin 1)) := by
  refine broadcastInDim_apply ![0, 1] h v (ix2 r c) (ix2 r (0 : Fin 1)) fun a => ?_
  match a with
  | ⟨0, _⟩ =>
    show r.val = if M = 1 then 0 else r.val
    split
    · have := r.isLt; omega
    · rfl
  | ⟨1, _⟩ => rfl

end Cert.DenseRows

end
-- ==== Proof.LibHiLoMatmul.lean ====
/-
  A matrix product `A · Bᵀ` of an `[m, k]` by an `[n, k]` operand (both contracted on their last axis) that is computed
  as THREE products into a zero accumulator, each operand split into a leading part and the remainder left after taking
  the leading part away,

      lead A · lead Bᵀ  +  lead A · rest Bᵀ  +  rest A · lead Bᵀ,

  read at an index over the extended reals. There the narrowing to the leading part is the identity, so the remainder
  of a FINITE entry is `a − a = 0`, the two mixed products vanish term by term (`a · 0 = 0`, `0 · b = 0`), and the
  three-product sum at `(p, q)` is the plain inner product `∑ c, A (p, c) · B (q, c)`. Proved here:

  • `sub_self_of_real`: a finite extended real minus itself is zero;
  • `matmul_nt_zero_apply`: one such product into the zero splat, read at `(p, q)`, is the sum over the contracted
    coordinate `c : Fin k` of `A (p, c) · B (q, c)`;
  • `three_matmul_apply`: the three-product sum above, for operands with finite entries, is that same inner product;
  • `sign_select_apply`: the vector term `select (|x| > 0) (select (x < 0) (−1) 1) x` read at an index is `Ideal.sign`
    of the element, at every extended real.
-/
import Idealize.ShloMosaic.Lib.ValueLayout
import Idealize.ShloMosaic.PureOps.Ideal.Laws

namespace Cert.HiLoMatmul

open Idealize.ShloMosaic Idealize.ShloMosaic.ValueIdx

/-- A finite extended real minus itself is zero (which fails at the two infinities). -/
theorem sub_self_of_real {x : EReal} (h : ∃ r : ℝ, x = (r : EReal)) : x - x = 0 := by
  obtain ⟨r, rfl⟩ := h
  rw [← EReal.coe_sub, sub_self, EReal.coe_zero]

/-- The dimension numbers of `A · Bᵀ`: both operands contracted on axis 1, rows of each kept. -/
abbrev ntDims {m k n : ℕ} (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

/-- One product `A · Bᵀ` into the zero splat, read at `(p, q)`: the sum over the contracted coordinate of the
    products of the entries. -/
theorem matmul_nt_zero_apply {m k n : ℕ} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂)
    (p : Fin m) (q : Fin n) :
    FloatOps.matmul (ntDims w) prec A B (constant (F := Ideal) ⟨2, ![m, n]⟩ .f32 0x00000000#32) (ix2 p q)
      = ∑ c : Fin k, A (ix2 p c) * B (ix2 q c) := by
  rw [Ideal.matmul_constant_zero_apply, ← Equiv.sum_comp (contrEquiv1 (ntDims w) k rfl rfl).symm]
  refine Finset.sum_congr rfl fun c _ => ?_
  have hc := contrEquiv1_symm_val (ntDims w) k rfl rfl c
  have hl : (ntDims w).lhsIdx (ix2 p q) ((contrEquiv1 (ntDims w) k rfl rfl).symm c) = ix2 p c := by
    funext ax; apply Fin.ext
    match ax with
    | ⟨0, _⟩ => simp [DotDims.lhsIdx]; rfl
    | ⟨1, _⟩ => simp [DotDims.lhsIdx]; exact hc
  have hr : (ntDims w).rhsIdx (ix2 p q) ((contrEquiv1 (ntDims w) k rfl rfl).symm c) = ix2 q c := by
    funext ax; apply Fin.ext
    match ax with
    | ⟨0, _⟩ => simp [DotDims.rhsIdx]; rfl
    | ⟨1, _⟩ => simp [DotDims.rhsIdx]; exact hc
  rw [hl, hr]

/-- The three-product sum: with the narrowing the identity and every entry finite, the two products against a
    remainder are sums of zeros, and what is left is the inner product. -/
theorem three_matmul_apply {m k n : ℕ} {φ : FTy}
    (w : DotDims.WF ⟨2, ![m, k]⟩ ⟨2, ![n, k]⟩ ⟨2, ![m, n]⟩ [1] [1] [0] [0] [] [])
    (prec : Option ContractPrecision) (hlt : φ.bits < FTy.bits .f32)
    (A : FVec Ideal ⟨2, ![m, k]⟩ .f32) (B : FVec Ideal ⟨2, ![n, k]⟩ .f32)
    (hA : ∀ j, ∃ r : ℝ, A j = (r : EReal)) (hB : ∀ j, ∃ r : ℝ, B j = (r : EReal)) (p : Fin m) (q : Fin n) :
    addf (addf
        (matmul (ntDims w) prec (truncf φ A hlt) (truncf φ B hlt) (constant ⟨2, ![m, n]⟩ .f32 0x00000000#32))
        (matmul (ntDims w) prec (truncf φ A hlt) (truncf φ (subf B B) hlt) (constant ⟨2, ![m, n]⟩ .f32 0x00000000#32)))
        (matmul (ntDims w) prec (truncf φ (subf A A) hlt) (truncf φ B hlt) (constant ⟨2, ![m, n]⟩ .f32 0x00000000#32))
        (ix2 p q)
      = ∑ c : Fin k, A (ix2 p c) * B (ix2 q c) := by
  rw [addf_apply, addf_apply]
  simp only [matmul]
  rw [matmul_nt_zero_apply, matmul_nt_zero_apply, matmul_nt_zero_apply]
  have h2 : ∑ c : Fin k, (truncf φ A hlt : FVec Ideal _ φ) (ix2 p c) * (truncf φ (subf B B) hlt : FVec Ideal _ φ) (ix2 q c) = 0 :=
    Finset.sum_eq_zero fun c _ => by
      rw [truncf_apply, truncf_apply, subf_apply, sub_self_of_real (hB _), mul_zero]
  have h3 : ∑ c : Fin k, (truncf φ (subf A A) hlt : FVec Ideal _ φ) (ix2 p c) * (truncf φ B hlt : FVec Ideal _ φ) (ix2 q c) = 0 :=
    Finset.sum_eq_zero fun c _ => by
      rw [truncf_apply, truncf_apply, subf_apply, sub_self_of_real (hA _), zero_mul]
  rw [h2, h3, add_zero, add_zero]
  exact Finset.sum_congr rfl fun c _ => by rw [truncf_apply, truncf_apply]

/-- The term printed for a sign, `select (|x| > 0) (select (x < 0) (−1) 1) x` over a whole `f32` vector, read at an
    index: `Ideal.sign` of the element, the two infinities and zero included. -/
theorem sign_select_apply {s : Shape} (x : FVec Ideal s .f32) (i : s.Idx) :
    select (cmpf .ogt (absf x) (broadcast s (Scalar.ofBits .f32 0x00000000#32)))
        (select (cmpf .olt x (constant s .f32 0x00000000#32)) (constant s .f32 0xBF800000#32)
          (constant s .f32 0x3F800000#32)) x i
      = Ideal.sign (x i) :=
  Ideal.jnp_sign_eq_sign_f32 (x i)

end Cert.HiLoMatmul
-- ==== Proof.Payload.lean ====
/-
  What one grid point's body leaves in the output block, read at row `p`, column `q` of the block: the fused step of
  the block's row `p` against the whole weight matrices, at column `q`.

  The body is four matrix products into zero accumulators with pointwise operations between them. At the extended reals
  the narrowing to the short float format before each product is the identity, so each product read at an entry is a
  plain sum over the contracted coordinate: `state · W1` and `relu · W2` contract the left operand's columns with the right
  operand's rows, the two products of the way back (`residual · W2ᵀ`, `gated · W1ᵀ`) contract both operands on their last
  axis. The bias rows are one row laid down the block's rows, the step size one entry laid over the block, and every
  other operation acts entry by entry.
-/
import proofs.«106871_j59133109731575_1_alg».proof.Proof.Gen.KernelIdeal.Frame
import proofs.«106871_j59133109731575_1_alg».proof.Proof.Spec
import proofs.«106871_j59133109731575_1_alg».proof.Proof.LibDenseRows
import proofs.«106871_j59133109731575_1_alg».proof.Proof.LibHiLoMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Idealize.ShloMosaic Idealize.ShloMosaic.ValueIdx Cert.KernelIdeal Cert.KernelIdeal.Gen Cert.TwoLayerStep
open scoped BigOperators

/-- The whole-buffer rectangle's offset is zero on both axes. -/
theorem hz : (![0, 0] : Fin 2 → Nat) = fun _ => 0 := funext fun a => by fin_cases a <;> rfl

/-- `state · W1` into the zero accumulator, at `(p, d)`: the sum over the row's 1024 entries. -/
theorem toHidden_apply {φ₁ φ₂ : FTy} (A : FVec Ideal S256x1024 φ₁) (W : FVec Ideal S1024x256 φ₂) (p : Fin 256) (d : Fin 256) :
    matmul dot_S256x1024_S1024x256_S256x256_1_0_0_1_n_n none A W (constant (F := Ideal) S256x256 .f32 0x00000000#32) (ix2 p d)
      = ∑ k : Fin 1024, A (ix2 p k) * W (ix2 k d) :=
  Cert.DenseRows.matmul_zero_plain_apply dot_S256x1024_S1024x256_S256x256_1_0_0_1_n_n rfl rfl rfl rfl
    (fun j k => by
      unfold DotDims.lhsIdx
      rw [dif_neg (show ¬(0 : Fin S256x1024.rank) ∈ dot_S256x1024_S1024x256_S256x256_1_0_0_1_n_n.lhsBatch by decide), dif_pos (show (0 : Fin S256x1024.rank) ∈ dot_S256x1024_S1024x256_S256x256_1_0_0_1_n_n.lhsNonContracting by decide)]
      rfl)
    (fun j k => by
      unfold DotDims.rhsIdx
      rw [dif_neg (show ¬(1 : Fin S1024x256.rank) ∈ dot_S256x1024_S1024x256_S256x256_1_0_0_1_n_n.rhsBatch by decide), dif_pos (show (1 : Fin S1024x256.rank) ∈ dot_S256x1024_S1024x256_S256x256_1_0_0_1_n_n.rhsNonContracting by decide)]
      rfl)
    A W p d

/-- `relu · W2` into the zero accumulator, at `(p, j)`: the sum over the 256 hidden units. -/
theorem toOutput_apply {φ₁ φ₂ : FTy} (A : FVec Ideal S256x256 φ₁) (W : FVec Ideal S256x1024 φ₂) (p : Fin 256) (j : Fin 1024) :
    matmul dot_S256x256_S256x1024_S256x1024_1_0_0_1_n_n none A W (constant (F := Ideal) S256x1024 .f32 0x00000000#32) (ix2 p j)
      = ∑ d : Fin 256, A (ix2 p d) * W (ix2 d j) :=
  Cert.DenseRows.matmul_zero_plain_apply dot_S256x256_S256x1024_S256x1024_1_0_0_1_n_n rfl rfl rfl rfl
    (fun j k => by
      unfold DotDims.lhsIdx
      rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
      rfl)
    (fun j k => by
      unfold DotDims.rhsIdx
      rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
      rfl)
    A W p j

/-- `residual · W2ᵀ` (both contracted on their last axis), at `(p, d)`: the sum over the 1024 output entries. -/
theorem backHidden_apply {φ₁ φ₂ : FTy} (A : FVec Ideal S256x1024 φ₁) (W : FVec Ideal S256x1024 φ₂) (p : Fin 256) (d : Fin 256) :
    matmul dot_S256x1024_S256x1024_S256x256_1_1_0_0_n_n none A W (constant (F := Ideal) S256x256 .f32 0x00000000#32) (ix2 p d)
      = ∑ j : Fin 1024, A (ix2 p j) * W (ix2 d j) :=
  Cert.HiLoMatmul.matmul_nt_zero_apply (m := 256) (k := 1024) (n := 256) dot_S256x1024_S256x1024_S256x256_1_1_0_0_n_n_wf none A W p d

/-- `gated · W1ᵀ` (both contracted on their last axis), at `(p, k)`: the sum over the 256 hidden units. -/
theorem backInput_apply {φ₁ φ₂ : FTy} (A : FVec Ideal S256x256 φ₁) (W : FVec Ideal S1024x256 φ₂) (p : Fin 256) (k : Fin 1024) :
    matmul dot_S256x256_S1024x256_S256x1024_1_1_0_0_n_n none A W (constant (F := Ideal) S256x1024 .f32 0x00000000#32) (ix2 p k)
      = ∑ d : Fin 256, A (ix2 p d) * W (ix2 k d) :=
  Cert.HiLoMatmul.matmul_nt_zero_apply (m := 256) (k := 256) (n := 1024) dot_S256x256_S1024x256_S256x1024_1_1_0_0_n_n_wf none A W p k

/-- The one entry of a `[1, 1]` vector. -/
theorem extract_scalar {α : Type} (x : (⟨2, ![1, 1]⟩ : Shape).Idx → α) (h : ∀ a, (![0, 0] : Fin 2 → Nat) a < (⟨2, ![1, 1]⟩ : Shape).size a) :
    extractAt ![0, 0] x h = x (ix2 (0 : Fin 1) (0 : Fin 1)) :=
  congrArg x (funext fun a => Fin.ext (by match a with | ⟨0, _⟩ => rfl | ⟨1, _⟩ => rfl))

/-- The output block after the body, at `(p, q)`: the fused step of row `p` of the state block against row `p` of the
    target block, the two weight matrices, the two bias rows and the step size, at column `q`. -/
theorem out_apply (x0 x1 : Vec Ideal S256x1024 .f32) (x2 : Vec Ideal S1024x256 .f32) (x3 : Vec Ideal S1x256 .f32)
    (x4 : Vec Ideal S256x1024 .f32) (x5 : Vec Ideal S1x1024 .f32) (x6 : Vec Ideal S1x1 .f32) (p : Fin 256) (q : Fin 1024) :
    out0_7 (F := Ideal) x0 x1 x2 x3 x4 x5 x6 (ix2 p q)
      = fusedRow (fun k => x0 (ix2 p k)) (fun k => x1 (ix2 p k)) (fun k d => x2 (ix2 k d)) (fun d => x3 (ix2 (0 : Fin 1) d))
          (fun d j => x4 (ix2 d j)) (fun j => x5 (ix2 (0 : Fin 1) j)) (x6 (ix2 (0 : Fin 1) (0 : Fin 1))) q := by
  unfold out0_7
  rw [View.canon_unit_zero hz]
  simp only [View.ld_unit_zero (S := S256x1024) hz, View.ld_unit_zero (S := S1024x256) hz, View.ld_unit_zero (S := S1x256) hz,
    View.ld_unit_zero (S := S1x1024) hz, View.ld_unit_zero (S := S1x1) hz]
  unfold k0_pay1 k0_pay3
  simp only [k0_pay2, shapeCast_self]
  simp only [subf_apply, mulf_apply, addf_apply, broadcast_apply, truncf_apply, select_apply, cmpf_apply,
    backInput_apply, backHidden_apply, toOutput_apply, toHidden_apply, broadcastTo_1b_ab_apply, extract_scalar]
  rfl

end Cert.KernelIdeal.BlockValue

end
-- ==== Proof.LibRank3Layout.lean ====
/-
  Layout operations between vectors, matrices and rank-three arrays, read at an index given by coordinates: a matrix
  `[a, b]` viewed as `[a, b, 1]` and laid along a third axis; a vector `[c]` viewed as `[1, 1, c]` and laid over the first
  two axes; a vector `[a]` viewed as a column `[a, 1]` and laid over the columns of `[a, b]`; an array `[a, b, c]` flattened
  to the matrix `[a·b, c]` whose row `p·b + q` is the fibre `(p, q, ·)`, and back; and the index a sum over one axis of a
  rank-three array, or over the columns of a matrix, inserts.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Rank3Layout

open Idealize.ShloMosaic Idealize.ShloMosaic.ValueIdx

variable {α : Type}

/-- A matrix `[a, b]` viewed as `[a, b, 1]` reads, at `(p, q, u)`, the matrix at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A vector `[c]` viewed as `[1, 1, c]` reads, at `(u, v, k)`, the vector at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * c + k.val
    simp [hu, hv])

/-- An array `[a, b, 1]` laid along a third axis of extent `c` reads, at `(p, q, k)`, the array at `(p, q, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ x h (ix3 p q k) = x (ix3 p q (0 : Fin 1)) := by
  refine broadcastTo_apply x h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- An array `[1, 1, c]` laid over two leading axes of extents `a` and `b` reads, at `(p, q, k)`, the array at `(0, 0, k)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (k : Fin c) :
    broadcastTo ⟨3, ![a, b, c]⟩ x h (ix3 p q k) = x (ix3 (0 : Fin 1) (0 : Fin 1) k) := by
  refine broadcastTo_apply x h (ix3 p q k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A vector `[c]` viewed as `[1, 1, c]` and laid over `[a, b, c]` reads, at `(p, q, k)`, the vector at `k`. -/
theorem fibreVector_apply {a b c : ℕ} (x : (⟨1, ![c]⟩ : Shape).Idx → α)
    (h1 : (⟨1, ![c]⟩ : Shape).ShapeCasts ⟨3, ![1, 1, c]⟩) (h2 : (⟨3, ![1, 1, c]⟩ : Shape).Broadcasts ⟨3, ![a, b, c]⟩)
    (p : Fin a) (q : Fin b) (k : Fin c) :
    broadcastTo ⟨3, ![a, b, c]⟩ (shapeCast ⟨3, ![1, 1, c]⟩ x h1) h2 (ix3 p q k) = x (ix1 k) :=
  (broadcastTo_11c_abc_apply _ h2 p q k).trans (shapeCast_c_11c_apply x h1 0 0 k)

/-- A matrix `[a, b]` viewed as `[a, b, 1]` and laid along a third axis reads, at `(p, q, k)`, the matrix at `(p, q)`. -/
theorem alongThird_apply {a b c : ℕ} (x : (⟨2, ![a, b]⟩ : Shape).Idx → α)
    (h1 : (⟨2, ![a, b]⟩ : Shape).ShapeCasts ⟨3, ![a, b, 1]⟩) (h2 : (⟨3, ![a, b, 1]⟩ : Shape).Broadcasts ⟨3, ![a, b, c]⟩)
    (p : Fin a) (q : Fin b) (k : Fin c) :
    broadcastTo ⟨3, ![a, b, c]⟩ (shapeCast ⟨3, ![a, b, 1]⟩ x h1) h2 (ix3 p q k) = x (ix2 p q) :=
  (broadcastTo_ab1_abc_apply _ h2 p q k).trans (shapeCast_ab_ab1_apply x h1 p q 0)

/-- A vector `[a]` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- A column `[a, 1]` laid over `b` columns reads, at `(p, q)`, the column at row `p`. -/
theorem broadcastTo_a1_ab_apply {a b : ℕ} (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p (0 : Fin 1)) := by
  refine broadcastTo_apply x h (ix2 p q) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column and laid over the columns of `[a, b]` reads, at `(p, q)`, the vector at `p`. -/
theorem columnVector_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ x h1) h2 (ix2 p q) = x (ix1 p) :=
  (broadcastTo_a1_ab_apply _ h2 p q).trans (shapeCast_a_a1_apply x h1 p 0)

/-- An array `[a, b, c]` flattened to a matrix of `n = a·b` rows reads, at row `r = p·b + q` and column `k`, the array at
    `(p, q, k)`. -/
theorem shapeCast_abc_flat_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) : shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- A matrix of `n = a·b` rows unflattened to `[a, b, c]` reads, at `(p, q, k)`, the matrix at row `r = p·b + q`, column `k`. -/
theorem shapeCast_flat_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) : shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.Rank3Layout

end
-- ==== Proof.KernelBlocks.lean ====
/-
  The output matrix of the region, read row by row.

  The region works on matrices of 32768 rows (the token rows of the 8 × 4096 state, flattened) and 1024 columns. Grid
  point `t` (of 128) is handed rows `256·t … 256·t + 255` of the state and of the target, and the two weight matrices,
  the two bias rows and the step size whole; it writes back the same 256 rows of the output. What the body leaves at
  row `p` of its block depends on row `p` of the two row blocks only, so every point's block is a block of ONE function of
  the whole matrices — row `r` of the output is the fused step of row `r` — and since the 128 blocks of 256 rows tile the
  32768 rows, the output matrix after the region is that function.
-/
import proofs.«106871_j59133109731575_1_alg».proof.Proof.Gen.KernelIdeal.Frame
import proofs.«106871_j59133109731575_1_alg».proof.Proof.Spec
import proofs.«106871_j59133109731575_1_alg».proof.Proof.Payload
import Idealize.ShloMosaic.Lib.ValueIdx
import Idealize.ShloMosaic.Lib.Pipeline.Value

noncomputable section

namespace Cert.KernelIdeal.ArrayValue

open Idealize.ShloMosaic Idealize.ShloMosaic.TcCoe Idealize.ShloMosaic.ValueIdx Idealize.SL.Sem
open Cert.KernelIdeal Cert.KernelIdeal.Gen Cert.TwoLayerStep

/-- The flattened result: row `r` is the fused step of row `r` of the state matrix `A0` against row `r` of the target
    matrix `A1`, with the weights `A2`, `A4`, the bias rows `A3`, `A5` and the step size `A6`. -/
def stepRows (A0 A1 : S32768x1024.Idx → EReal) (A2 : S1024x256.Idx → EReal) (A3 : S1x256.Idx → EReal)
    (A4 : S256x1024.Idx → EReal) (A5 : S1x1024.Idx → EReal) (A6 : S1x1.Idx → EReal) : S32768x1024.Idx → EReal := fun i =>
  fusedRow (fun k => A0 (ix2 (i 0 : Fin 32768) k)) (fun k => A1 (ix2 (i 0 : Fin 32768) k)) (fun k d => A2 (ix2 k d))
    (fun d => A3 (ix2 (0 : Fin 1) d)) (fun d j => A4 (ix2 d j)) (fun j => A5 (ix2 (0 : Fin 1) j))
    (A6 (ix2 (0 : Fin 1) (0 : Fin 1))) (i 1 : Fin 1024)

theorem stepRows_apply (A0 A1 : S32768x1024.Idx → EReal) (A2 : S1024x256.Idx → EReal) (A3 : S1x256.Idx → EReal)
    (A4 : S256x1024.Idx → EReal) (A5 : S1x1024.Idx → EReal) (A6 : S1x1.Idx → EReal) (r : Fin 32768) (q : Fin 1024) :
    stepRows A0 A1 A2 A3 A4 A5 A6 (ix2 r q)
      = fusedRow (fun k => A0 (ix2 r k)) (fun k => A1 (ix2 r k)) (fun k d => A2 (ix2 k d)) (fun d => A3 (ix2 (0 : Fin 1) d))
          (fun d j => A4 (ix2 d j)) (fun j => A5 (ix2 (0 : Fin 1) j)) (A6 (ix2 (0 : Fin 1) (0 : Fin 1))) q := rfl

/-- A block whose row `p` is row `r` of the state and target matrices, and whose other operands are the whole weight,
    bias and step-size arrays, is left by the body with row `p` at row `r` of the flattened result. -/
theorem body_row (x0 x1 : Vec Ideal S256x1024 .f32) (x2 : Vec Ideal S1024x256 .f32) (x3 : Vec Ideal S1x256 .f32)
    (x4 : Vec Ideal S256x1024 .f32) (x5 : Vec Ideal S1x1024 .f32) (x6 : Vec Ideal S1x1 .f32)
    (A0 A1 : S32768x1024.Idx → EReal) (A2 : S1024x256.Idx → EReal) (A3 : S1x256.Idx → EReal)
    (A4 : S256x1024.Idx → EReal) (A5 : S1x1024.Idx → EReal) (A6 : S1x1.Idx → EReal)
    (p : Fin 256) (q : Fin 1024) (r : Fin 32768)
    (h0 : ∀ k : Fin 1024, x0 (ix2 p k) = A0 (ix2 r k)) (h1 : ∀ k : Fin 1024, x1 (ix2 p k) = A1 (ix2 r k))
    (h2 : ∀ (k : Fin 1024) (d : Fin 256), x2 (ix2 k d) = A2 (ix2 k d)) (h3 : ∀ d : Fin 256, x3 (ix2 (0 : Fin 1) d) = A3 (ix2 (0 : Fin 1) d))
    (h4 : ∀ (d : Fin 256) (j : Fin 1024), x4 (ix2 d j) = A4 (ix2 d j)) (h5 : ∀ j : Fin 1024, x5 (ix2 (0 : Fin 1) j) = A5 (ix2 (0 : Fin 1) j))
    (h6 : x6 (ix2 (0 : Fin 1) (0 : Fin 1)) = A6 (ix2 (0 : Fin 1) (0 : Fin 1))) :
    out0_7 (F := Ideal) x0 x1 x2 x3 x4 x5 x6 (ix2 p q) = stepRows A0 A1 A2 A3 A4 A5 A6 (ix2 r q) := by
  rw [BlockValue.out_apply, stepRows_apply]
  simp only [h0, h1, h2, h3, h4, h5, h6]

variable (m : (ℓ : Loc nD τ sig) → Buf (Elt Ideal) ℓ)

theorem zeroOffsets : (![0, 0] : Fin 2 → Nat) = fun _ => 0 := funext fun a => by fin_cases a <;> rfl

/-- Where each window's block sits, decided over the 128 points: the state, the target and the output move one block of
    rows per point; every other window stays at its one block. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row `p` of the state block at point `t` is row `256·t + p` of the state matrix. -/
theorem stateBlock_apply (c : Dev nD) (t : Fin cfg0.N) (p : Fin 256) (k : Fin 1024) (r : Fin 32768)
    (hr : r.val = t.val * 256 + p.val) :
    (iblk m c 0 t : Vec Ideal S256x1024 .f32) (ix2 p k) = (V m c main_v0 : S32768x1024.Idx → EReal) (ix2 r k) := by
  obtain ⟨e0, e1, -⟩ := blockIndex t
  have h : ((cfg0.win 0).blk t).view.emb (ix2 p k) = (ix2 r k : S32768x1024.Idx) := by
    funext a; apply Fin.ext
    match a with
    | ⟨0, _⟩ => show win0_0.index t (0 : Fin 2) * 256 + 1 * p.val = r.val; omega
    | ⟨1, _⟩ => show win0_0.index t (1 : Fin 2) * 1024 + 1 * k.val = k.val; omega
  show V m c main_v0 (((cfg0.win 0).blk t).view.emb (ix2 p k)) = _
  rw [h]

/-- Row `p` of the target block at point `t` is row `256·t + p` of the target matrix. -/
theorem targetBlock_apply (c : Dev nD) (t : Fin cfg0.N) (p : Fin 256) (k : Fin 1024) (r : Fin 32768)
    (hr : r.val = t.val * 256 + p.val) :
    (iblk m c 1 t : Vec Ideal S256x1024 .f32) (ix2 p k) = (V m c main_v1 : S32768x1024.Idx → EReal) (ix2 r k) := by
  obtain ⟨-, -, e0, e1, -⟩ := blockIndex t
  have h : ((cfg0.win 1).blk t).view.emb (ix2 p k) = (ix2 r k : S32768x1024.Idx) := by
    funext a; apply Fin.ext
    match a with
    | ⟨0, _⟩ => show win0_1.index t (0 : Fin 2) * 256 + 1 * p.val = r.val; omega
    | ⟨1, _⟩ => show win0_1.index t (1 : Fin 2) * 1024 + 1 * k.val = k.val; omega
  show V m c main_v1 (((cfg0.win 1).blk t).view.emb (ix2 p k)) = _
  rw [h]

/-- The first weight matrix is handed to every point whole. -/
theorem weight1Block_apply (c : Dev nD) (t : Fin cfg0.N) (k : Fin 1024) (d : Fin 256) :
    (iblk m c 2 t : Vec Ideal S1024x256 .f32) (ix2 k d) = (V m c main_arg2 : S1024x256.Idx → EReal) (ix2 k d) := by
  obtain ⟨-, -, -, -, e0, e1, -⟩ := blockIndex t
  have h : ((cfg0.win 2).blk t).view.emb (ix2 k d) = (ix2 k d : S1024x256.Idx) := by
    funext a; apply Fin.ext
    match a with
    | ⟨0, _⟩ => show win0_2.index t (0 : Fin 2) * 1024 + 1 * k.val = k.val; omega
    | ⟨1, _⟩ => show win0_2.index t (1 : Fin 2) * 256 + 1 * d.val = d.val; omega
  show V m c main_arg2 (((cfg0.win 2).blk t).view.emb (ix2 k d)) = _
  rw [h]

/-- The first bias row is handed to every point whole. -/
theorem bias1Block_apply (c : Dev nD) (t : Fin cfg0.N) (u : Fin 1) (d : Fin 256) :
    (iblk m c 3 t : Vec Ideal S1x256 .f32) (ix2 u d) = (V m c main_v2 : S1x256.Idx → EReal) (ix2 u d) := by
  obtain ⟨-, -, -, -, -, -, e0, e1, -⟩ := blockIndex t
  have h : ((cfg0.win 3).blk t).view.emb (ix2 u d) = (ix2 u d : S1x256.Idx) := by
    funext a; apply Fin.ext
    match a with
    | ⟨0, _⟩ => show win0_3.index t (0 : Fin 2) * 1 + 1 * u.val = u.val; omega
    | ⟨1, _⟩ => show win0_3.index t (1 : Fin 2) * 256 + 1 * d.val = d.val; omega
  show V m c main_v2 (((cfg0.win 3).blk t).view.emb (ix2 u d)) = _
  rw [h]

/-- The second weight matrix is handed to every point whole. -/
theorem weight2Block_apply (c : Dev nD) (t : Fin cfg0.N) (d : Fin 256) (j : Fin 1024) :
    (iblk m c 4 t : Vec Ideal S256x1024 .f32) (ix2 d j) = (V m c main_arg4 : S256x1024.Idx → EReal) (ix2 d j) := by
  obtain ⟨-, -, -, -, -, -, -, -, e0, e1, -⟩ := blockIndex t
  have h : ((cfg0.win 4).blk t).view.emb (ix2 d j) = (ix2 d j : S256x1024.Idx) := by
    funext a; apply Fin.ext
    match a with
    | ⟨0, _⟩ => show win0_4.index t (0 : Fin 2) * 256 + 1 * d.val = d.val; omega
    | ⟨1, _⟩ => show win0_4.index t (1 : Fin 2) * 1024 + 1 * j.val = j.val; omega
  show V m c main_arg4 (((cfg0.win 4).blk t).view.emb (ix2 d j)) = _
  rw [h]

/-- The second bias row is handed to every point whole. -/
theorem bias2Block_apply (c : Dev nD) (t : Fin cfg0.N) (u : Fin 1) (j : Fin 1024) :
    (iblk m c 5 t : Vec Ideal S1x1024 .f32) (ix2 u j) = (V m c main_v3 : S1x1024.Idx → EReal) (ix2 u j) := by
  obtain ⟨-, -, -, -, -, -, -, -, -, -, e0, e1, -⟩ := blockIndex t
  have h : ((cfg0.win 5).blk t).view.emb (ix2 u j) = (ix2 u j : S1x1024.Idx) := by
    funext a; apply Fin.ext
    match a with
    | ⟨0, _⟩ => show win0_5.index t (0 : Fin 2) * 1 + 1 * u.val = u.val; omega
    | ⟨1, _⟩ => show win0_5.index t (1 : Fin 2) * 1024 + 1 * j.val = j.val; omega
  show V m c main_v3 (((cfg0.win 5).blk t).view.emb (ix2 u j)) = _
  rw [h]

/-- The step size is handed to every point whole. -/
theorem stepSizeBlock_apply (c : Dev nD) (t : Fin cfg0.N) (u v : Fin 1) :
    (iblk m c 6 t : Vec Ideal S1x1 .f32) (ix2 u v) = (V m c main_v4 : S1x1.Idx → EReal) (ix2 u v) := by
  obtain ⟨-, -, -, -, -, -, -, -, -, -, -, -, e0, e1, -⟩ := blockIndex t
  have h : ((cfg0.win 6).blk t).view.emb (ix2 u v) = (ix2 u v : S1x1.Idx) := by
    funext a; apply Fin.ext
    match a with
    | ⟨0, _⟩ => show win0_6.index t (0 : Fin 2) * 1 + 1 * u.val = u.val; omega
    | ⟨1, _⟩ => show win0_6.index t (1 : Fin 2) * 1 + 1 * v.val = v.val; omega
  show V m c main_v4 (((cfg0.win 6).blk t).view.emb (ix2 u v)) = _
  rw [h]

end Cert.KernelIdeal.ArrayValue

end
-- ==== Proof.KernelArray.lean ====
/-
  The output matrix after the region is the fused step, row by row.

  What grid point `t` writes back is rows `256·t … 256·t + 255` of one function of the whole matrices; the row `r` lies in
  the block of point `r / 256`, so the 128 blocks cover the matrix, and the matrix ends as that function.
-/
import proofs.«106871_j59133109731575_1_alg».proof.Proof.KernelBlocks

noncomputable section

namespace Cert.KernelIdeal.ArrayValue

open Idealize.ShloMosaic Idealize.ShloMosaic.TcCoe Idealize.ShloMosaic.ValueIdx Idealize.SL.Sem
open Cert.KernelIdeal Cert.KernelIdeal.Gen Cert.TwoLayerStep

variable (m : (ℓ : Loc nD τ sig) → Buf (Elt Ideal) ℓ)

/-- The flattened result of the matrices as the region finds them. -/
abbrev flatResult (c : Dev nD) : S32768x1024.Idx → EReal :=
  stepRows (V m c main_v0) (V m c main_v1) (V m c main_arg2) (V m c main_v2) (V m c main_arg4) (V m c main_v3) (V m c main_v4)

/-- What point `t` writes back is its block of rows of the flattened result. -/
theorem writtenBack_eq (c : Dev nD) (t : Fin cfg0.N) :
    (dats m 0 c).flushed 7 t = ((cfg0.win 7).blk t).view.read (Elt Ideal) (flatResult m c) := by
  show (cfg0.win 7).cut (grid0.coords t) ((dats m 0 c).after 7 t) = _
  rw [after0_7]
  funext j
  obtain ⟨p, q, rfl⟩ : ∃ (p : Fin 256) (q : Fin 1024), j = ix2 p q := ⟨j 0, j 1, eq_ix2 j⟩
  obtain ⟨-, -, -, -, -, -, -, -, -, -, -, -, -, -, e0, e1⟩ := blockIndex t
  have ht : t.val < 128 := lt_of_lt_of_eq t.isLt N_0
  have hp : p.val < 256 := p.isLt
  obtain ⟨r, hr⟩ : ∃ r : Fin 32768, r.val = t.val * 256 + p.val := ⟨⟨t.val * 256 + p.val, by omega⟩, rfl⟩
  have h : ((cfg0.win 7).blk t).view.emb (ix2 p q) = (ix2 r q : S32768x1024.Idx) := by
    funext a; apply Fin.ext
    match a with
    | ⟨0, _⟩ => show win0_7.index t (0 : Fin 2) * 256 + 1 * p.val = r.val; omega
    | ⟨1, _⟩ => show win0_7.index t (1 : Fin 2) * 1024 + 1 * q.val = q.val; omega
  show out0_7 (iblk m c 0 t) (iblk m c 1 t) (iblk m c 2 t) (iblk m c 3 t) (iblk m c 4 t) (iblk m c 5 t) (iblk m c 6 t) (ix2 p q)
      = flatResult m c (((cfg0.win 7).blk t).view.emb (ix2 p q))
  rw [h]
  exact body_row (iblk m c 0 t) (iblk m c 1 t) (iblk m c 2 t) (iblk m c 3 t) (iblk m c 4 t) (iblk m c 5 t) (iblk m c 6 t)
    (V m c main_v0) (V m c main_v1) (V m c main_arg2) (V m c main_v2) (V m c main_arg4) (V m c main_v3) (V m c main_v4) p q r
    (fun k => stateBlock_apply m c t p k r hr) (fun k => targetBlock_apply m c t p k r hr)
    (fun k d => weight1Block_apply m c t k d) (fun d => bias1Block_apply m c t 0 d)
    (fun d j => weight2Block_apply m c t d j) (fun j => bias2Block_apply m c t 0 j) (stepSizeBlock_apply m c t 0 0)

/-- An index of the output matrix is in point `t`'s block iff each coordinate is in the block's range on its axis. -/
theorem mem_outBlock (t : Fin cfg0.N) (i : S32768x1024.Idx) :
    i ∈ ((cfg0.win 7).blk t).view.set ↔ ∀ a : Fin 2, win0_7.index t a * S256x1024.size a ≤ (i a).val
      ∧ (i a).val < win0_7.index t a * S256x1024.size a + S256x1024.size a := by
  show i ∈ ((View.whole main_v5).slice (win0_7.rect t)).set ↔ _
  rw [View.set_slice_whole, Rect.mem_set_unit]
  exact Iff.rfl

/-- Row `r` lies in the block of point `r / 256`, which is written back. -/
theorem rows_covered (i : S32768x1024.Idx) :
    ∃ t : Fin cfg0.N, (cfg0.win 7).flush t = true ∧ i ∈ ((cfg0.win 7).blk t).view.set := by
  have hi0 : (i 0).val < 32768 := (i 0).isLt
  have hi1 : (i 1).val < 1024 := (i 1).isLt
  have hN : (i 0).val / 256 < cfg0.N := by rw [show cfg0.N = 128 from N_0]; omega
  obtain ⟨t, ht⟩ : ∃ t : Fin cfg0.N, t.val = (i 0).val / 256 := ⟨⟨_, hN⟩, rfl⟩
  obtain ⟨-, -, -, -, -, -, -, -, -, -, -, -, -, -, e0, e1⟩ := blockIndex t
  refine ⟨t, flush0_7 t, ?_⟩
  rw [mem_outBlock]
  intro a
  match a with
  | ⟨0, _⟩ =>
    show win0_7.index t (0 : Fin 2) * 256 ≤ (i 0).val ∧ (i 0).val < win0_7.index t (0 : Fin 2) * 256 + 256
    omega
  | ⟨1, _⟩ =>
    show win0_7.index t (1 : Fin 2) * 1024 ≤ (i 1).val ∧ (i 1).val < win0_7.index t (1 : Fin 2) * 1024 + 1024
    omega

/-- The output matrix after the region is the flattened result. -/
theorem outArray_eq (c : Dev nD) : (dats m 0 c).arrAt 7 cfg0.N = flatResult m c :=
  (dats m 0 c).arrAt_eq_of_cover 7 (flatResult m c) (fun t _ => writtenBack_eq m c t) rows_covered

end Cert.KernelIdeal.ArrayValue

end
-- ==== Proof.KernelHost.lean ====
/-
  The arrays the region is handed, read at an entry from the program's arguments. Before the region the program only
  re-lays arguments: the state and the target `[8, 4096, 1024]` are flattened to `[32768, 1024]`, row `b·4096 + s` being
  the token row `(b, s)`; the two bias vectors become one-row matrices; the step size becomes a `[1, 1]` matrix.
-/
import proofs.«106871_j59133109731575_1_alg».proof.Proof.Gen.KernelIdeal.Frame
import proofs.«106871_j59133109731575_1_alg».proof.Proof.LibRank3Layout
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostReads

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The flattened state as the region finds it. -/
theorem state_eq (c : Dev nD) :
    (V m c main_v0 : S32768x1024.Idx → EReal)
      = shapeCast S32768x1024 (m ((c.tc : Thread nD τ).loc main_arg0)) Facts₀.shapeCasts_S8x4096x1024_S32768x1024 := by
  show StableHlo.after hostOps0 (fun b => m (c, b)) (Proc.devRef .tc main_v0) = _
  after_results
  rfl

/-- Row `b·4096 + s` of the flattened state is the token row `(b, s)`. -/
theorem state_apply (c : Dev nD) (b : Fin 8) (s : Fin 4096) (k : Fin 1024) (r : Fin 32768) (hr : r.val = b.val * 4096 + s.val) :
    (V m c main_v0 : S32768x1024.Idx → EReal) (ix2 r k) = m ((c.tc : Thread nD τ).loc main_arg0) (ix3 b s k) := by
  rw [state_eq]
  exact Cert.Rank3Layout.shapeCast_abc_flat_apply _ _ b s k r hr

/-- The flattened target as the region finds it. -/
theorem target_eq (c : Dev nD) :
    (V m c main_v1 : S32768x1024.Idx → EReal)
      = shapeCast S32768x1024 (m ((c.tc : Thread nD τ).loc main_arg1)) Facts₀.shapeCasts_S8x4096x1024_S32768x1024 := by
  show StableHlo.after hostOps0 (fun b => m (c, b)) (Proc.devRef .tc main_v1) = _
  after_results
  rfl

/-- Row `b·4096 + s` of the flattened target is the token row `(b, s)`. -/
theorem target_apply (c : Dev nD) (b : Fin 8) (s : Fin 4096) (k : Fin 1024) (r : Fin 32768) (hr : r.val = b.val * 4096 + s.val) :
    (V m c main_v1 : S32768x1024.Idx → EReal) (ix2 r k) = m ((c.tc : Thread nD τ).loc main_arg1) (ix3 b s k) := by
  rw [target_eq]
  exact Cert.Rank3Layout.shapeCast_abc_flat_apply _ _ b s k r hr

/-- The first bias as a one-row matrix. -/
theorem bias1_eq (c : Dev nD) :
    (V m c main_v2 : S1x256.Idx → EReal)
      = shapeCast S1x256 (m ((c.tc : Thread nD τ).loc main_arg3)) Facts₀.shapeCasts_S256_S1x256 := by
  show StableHlo.after hostOps0 (fun b => m (c, b)) (Proc.devRef .tc main_v2) = _
  after_results
  rfl

/-- Its one row is the bias vector. -/
theorem bias1_apply (c : Dev nD) (d : Fin 256) :
    (V m c main_v2 : S1x256.Idx → EReal) (ix2 (0 : Fin 1) d) = m ((c.tc : Thread nD τ).loc main_arg3) (ix1 d) := by
  rw [bias1_eq]
  exact shapeCast_a_1a_apply _ _ 0 d

/-- The second bias as a one-row matrix. -/
theorem bias2_eq (c : Dev nD) :
    (V m c main_v3 : S1x1024.Idx → EReal)
      = shapeCast S1x1024 (m ((c.tc : Thread nD τ).loc main_arg5)) Facts₀.shapeCasts_S1024_S1x1024 := by
  show StableHlo.after hostOps0 (fun b => m (c, b)) (Proc.devRef .tc main_v3) = _
  after_results
  rfl

/-- Its one row is the bias vector. -/
theorem bias2_apply (c : Dev nD) (j : Fin 1024) :
    (V m c main_v3 : S1x1024.Idx → EReal) (ix2 (0 : Fin 1) j) = m ((c.tc : Thread nD τ).loc main_arg5) (ix1 j) := by
  rw [bias2_eq]
  exact shapeCast_a_1a_apply _ _ 0 j

/-- The step size as a one-entry matrix. -/
theorem stepSize_eq (c : Dev nD) :
    (V m c main_v4 : S1x1.Idx → EReal)
      = shapeCast S1x1 (m ((c.tc : Thread nD τ).loc main_arg6)) Facts₀.shapeCasts_S_S1x1 := by
  show StableHlo.after hostOps0 (fun b => m (c, b)) (Proc.devRef .tc main_v4) = _
  after_results
  rfl

/-- Its one entry is the scalar (the scalar shape has one index). -/
theorem stepSize_apply (c : Dev nD) :
    (V m c main_v4 : S1x1.Idx → EReal) (ix2 (0 : Fin 1) (0 : Fin 1)) = m ((c.tc : Thread nD τ).loc main_arg6) ix0 := by
  rw [stepSize_eq]
  unfold shapeCast
  exact congrArg _ (eq_ix0 _)

end Cert.KernelIdeal.HostReads

end
-- ==== Proof.KernelValue.lean ====
/-
  The kernel program's result array: every entry `(b, τ, k)` is the fused step of the token row `(b, τ)`.

  The program flattens the state and the target `[8, 4096, 1024]` to matrices of 32768 rows (row `4096·b + s` is the token
  row `(b, s)`), views the two bias vectors as one-row matrices and the step size as a one-by-one matrix, runs the region —
  whose output matrix is the fused step row by row — and unflattens the output matrix to `[8, 4096, 1024]`.
-/
import proofs.«106871_j59133109731575_1_alg».proof.Proof.Gen.KernelIdeal.Frame
import proofs.«106871_j59133109731575_1_alg».proof.Proof.Spec
import proofs.«106871_j59133109731575_1_alg».proof.Proof.Payload
import proofs.«106871_j59133109731575_1_alg».proof.Proof.LibRank3Layout
import proofs.«106871_j59133109731575_1_alg».proof.Proof.KernelArray
import proofs.«106871_j59133109731575_1_alg».proof.Proof.KernelHost
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.ArrayValue

open Idealize.ShloMosaic Idealize.ShloMosaic.TcCoe Idealize.ShloMosaic.ValueIdx Idealize.SL.Sem
open Cert.KernelIdeal Cert.KernelIdeal.Gen Cert.TwoLayerStep

variable (m : (ℓ : Loc nD τ sig) → Buf (Elt Ideal) ℓ) (ρ : Dev nD → PrngReg)

/-- The result array as one function of the argument arrays: entry `(b, τ, k)` is the fused step of row `(b, τ)`. -/
def result (c : Dev nD) : Buf (Elt Ideal) ((c.tc : Thread nD τ).loc main_v6) := fun i =>
  fusedRow (fun k => m ((c.tc : Thread nD τ).loc main_arg0) (ix3 (i 0 : Fin 8) (i 1 : Fin 4096) k))
    (fun k => m ((c.tc : Thread nD τ).loc main_arg1) (ix3 (i 0 : Fin 8) (i 1 : Fin 4096) k))
    (fun k d => m ((c.tc : Thread nD τ).loc main_arg2) (ix2 k d))
    (fun d => m ((c.tc : Thread nD τ).loc main_arg3) (ix1 d))
    (fun d j => m ((c.tc : Thread nD τ).loc main_arg4) (ix2 d j))
    (fun j => m ((c.tc : Thread nD τ).loc main_arg5) (ix1 j))
    (m ((c.tc : Thread nD τ).loc main_arg6) ix0) (i 2 : Fin 1024)

/-- The fused step depends on its seven operands only through their values. -/
theorem fusedRow_congr {x x' y y' : Fin 1024 → EReal} {w1 w1' : Fin 1024 → Fin 256 → EReal} {c1 c1' : Fin 256 → EReal}
    {w2 w2' : Fin 256 → Fin 1024 → EReal} {c2 c2' : Fin 1024 → EReal} {σ σ' : EReal}
    (hx : x = x') (hy : y = y') (hw1 : w1 = w1') (hc1 : c1 = c1') (hw2 : w2 = w2') (hc2 : c2 = c2') (hσ : σ = σ') (k : Fin 1024) :
    fusedRow x y w1 c1 w2 c2 σ k = fusedRow x' y' w1' c1' w2' c2' σ' k := by
  rw [hx, hy, hw1, hc1, hw2, hc2, hσ]

/-- The unflattening after the region: the result buffer is the region's output matrix viewed as `[8, 4096, 1024]`. -/
theorem tail_eq (c : Dev nD) :
    Pipeline.afterTail₀ cfgs (dats m) 0 (V0 m) [hostOps1] c main_v6
      = shapeCast S8x4096x1024 (flatResult m c) shapeCasts_S32768x1024_S8x4096x1024 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = flatResult m c :=
    (Pipeline.withArrays_arr spec0 launch0.win.arr_inj c _ _ 7).trans (outArray_eq m c)
  rw [e]
  rfl

/-- The result buffer after the program, entry by entry. -/
theorem result_eq (c : Dev nD) : Pipeline.afterTail₀ cfgs (dats m) 0 (V0 m) [hostOps1] c main_v6 = result m c := by
  rw [tail_eq m c]
  funext i
  obtain ⟨b, s, k, rfl⟩ : ∃ (b : Fin 8) (s : Fin 4096) (k : Fin 1024), i = ix3 b s k := ⟨i 0, i 1, i 2, eq_ix3 i⟩
  have hb : b.val < 8 := b.isLt
  have hs : s.val < 4096 := s.isLt
  obtain ⟨r, hr⟩ : ∃ r : Fin 32768, r.val = b.val * 4096 + s.val := ⟨⟨b.val * 4096 + s.val, by omega⟩, rfl⟩
  refine (Cert.Rank3Layout.shapeCast_flat_abc_apply (flatResult m c) shapeCasts_S32768x1024_S8x4096x1024 b s k r hr).trans ?_
  refine (stepRows_apply _ _ _ _ _ _ _ r k).trans ?_
  show _ = fusedRow (fun k' => m ((c.tc : Thread nD τ).loc main_arg0) (ix3 b s k'))
    (fun k' => m ((c.tc : Thread nD τ).loc main_arg1) (ix3 b s k'))
    (fun k' d => m ((c.tc : Thread nD τ).loc main_arg2) (ix2 k' d))
    (fun d => m ((c.tc : Thread nD τ).loc main_arg3) (ix1 d))
    (fun d j => m ((c.tc : Thread nD τ).loc main_arg4) (ix2 d j))
    (fun j => m ((c.tc : Thread nD τ).loc main_arg5) (ix1 j))
    (m ((c.tc : Thread nD τ).loc main_arg6) ix0) k
  exact fusedRow_congr (funext fun k' => HostReads.state_apply m c b s k' r hr)
    (funext fun k' => HostReads.target_apply m c b s k' r hr)
    (by rw [V_main_arg2]) (funext fun d => HostReads.bias1_apply m c d)
    (by rw [V_main_arg4]) (funext fun j => HostReads.bias2_apply m c j)
    (HostReads.stepSize_apply m c) k

/-- Every weakly fair execution of the kernel program ends with the result buffer at `result` and the arguments unchanged. -/
theorem run : θ_run (defs (F := Ideal)) (onTc (τ := τ) (main (F := Ideal))) ⟨m, fun _ => 0, ρ⟩ (fun r => ∀ c : Dev nD,
      r.2.mem ((c.tc : Thread nD τ).loc main_v6) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_v6 (Pipeline.mem_restRefs_of main_v6 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (Gen.run_main m ρ)

end Cert.KernelIdeal.ArrayValue

end
-- ==== Proof.RefRow.lean ====
/-
  The differentiated program's result, read at one entry `(b, τ, k)`: the differentiated step of the token row `(b, τ)`.
-/
import proofs.«106871_j59133109731575_1_alg».proof.Proof.Gen.ReferenceIdeal.Read
import proofs.«106871_j59133109731575_1_alg».proof.Proof.Spec
import Idealize.ShloMosaic.Lib.ValueIdx
import Idealize.ShloMosaic.PureOps.Ideal.Laws

noncomputable section

namespace Cert.ReferenceIdeal.RowValue

open Idealize.ShloMosaic Idealize.ShloMosaic.ValueIdx Cert.ReferenceIdeal Cert.ReferenceIdeal.Read Cert.TwoLayerStep
open scoped BigOperators

/-! ### The operations' composed index functions at explicit coordinates -/

theorem lidx_v0 (b : Fin 8) (τ : Fin 4096) (d : Fin 256) (k : Fin 1024) :
    lidx_main_v0 (ix3 b τ d) k = ix3 b τ k :=
  funext fun a => Fin.ext (by match a with | ⟨0, _⟩ => rfl | ⟨1, _⟩ => rfl | ⟨2, _⟩ => rfl)

theorem ridx_v0 (b : Fin 8) (τ : Fin 4096) (d : Fin 256) (k : Fin 1024) :
    ridx_main_v0 (ix3 b τ d) k = ix2 k d :=
  funext fun a => Fin.ext (by match a with | ⟨0, _⟩ => rfl | ⟨1, _⟩ => rfl)

theorem idx_v2_v1 (b : Fin 8) (τ : Fin 4096) (d : Fin 256) :
    idx_main_v1 (idx_main_v2 (ix3 b τ d)) = ix1 d :=
  funext fun a => Fin.ext (by match a with | ⟨0, _⟩ => rfl)

/-- The first layer before rectification. -/
theorem hidden_apply (s : (⟨S8x4096x1024, .f32⟩ : BufTy).Contents (Elt Ideal)) (W1 : (⟨S1024x256, .f32⟩ : BufTy).Contents (Elt Ideal))
    (b1 : (⟨S256, .f32⟩ : BufTy).Contents (Elt Ideal)) (b : Fin 8) (τ : Fin 4096) (d : Fin 256) :
    val_main_v3 (F := Ideal) s W1 b1 (ix3 b τ d)
      = hidden (fun k => s (ix3 b τ k)) (fun k d => W1 (ix2 k d)) (fun d => b1 (ix1 d)) d := by
  rw [val_main_v3_apply, val_main_v0_apply, val_main_v2_apply, val_main_v1_apply]
  simp only [lidx_v0, ridx_v0, idx_v2_v1, Ideal.addf_def]
  rfl

/-- Rectification by a maximum with zero. -/
theorem reluMax_apply (s : (⟨S8x4096x1024, .f32⟩ : BufTy).Contents (Elt Ideal)) (W1 : (⟨S1024x256, .f32⟩ : BufTy).Contents (Elt Ideal))
    (b1 : (⟨S256, .f32⟩ : BufTy).Contents (Elt Ideal)) (b : Fin 8) (τ : Fin 4096) (d : Fin 256) :
    val_main_v4 (F := Ideal) s W1 b1 (ix3 b τ d)
      = reluMax (fun k => s (ix3 b τ k)) (fun k d => W1 (ix2 k d)) (fun d => b1 (ix1 d)) d := by
  rw [val_main_v4_apply, hidden_apply, val_main_call0_v0_apply, val_main_call0_cst_apply]
  simp only [Ideal.maximumf_def, Ideal.ofBits_def]
  rfl

/-- The one-bit word of "the hidden unit is positive". -/
theorem gate_apply (s : (⟨S8x4096x1024, .f32⟩ : BufTy).Contents (Elt Ideal)) (W1 : (⟨S1024x256, .f32⟩ : BufTy).Contents (Elt Ideal))
    (b1 : (⟨S256, .f32⟩ : BufTy).Contents (Elt Ideal)) (b : Fin 8) (τ : Fin 4096) (d : Fin 256) :
    val_main_v6 (F := Ideal) s W1 b1 (ix3 b τ d)
      = gate (fun k => s (ix3 b τ k)) (fun k d => W1 (ix2 k d)) (fun d => b1 (ix1 d)) d := by
  rw [val_main_v6_apply, hidden_apply, val_main_v5_apply, val_main_cst_apply]
  simp only [Ideal.cmpf_def, Ideal.ofBits_def]
  rfl

theorem lidx_v8 (b : Fin 8) (τ : Fin 4096) (j : Fin 1024) (d : Fin 256) :
    lidx_main_v8 (ix3 b τ j) d = ix3 b τ d :=
  funext fun a => Fin.ext (by match a with | ⟨0, _⟩ => rfl | ⟨1, _⟩ => rfl | ⟨2, _⟩ => rfl)

theorem ridx_v8 (b : Fin 8) (τ : Fin 4096) (j : Fin 1024) (d : Fin 256) :
    ridx_main_v8 (ix3 b τ j) d = ix2 d j :=
  funext fun a => Fin.ext (by match a with | ⟨0, _⟩ => rfl | ⟨1, _⟩ => rfl)

theorem idx_v10_v9 (b : Fin 8) (τ : Fin 4096) (j : Fin 1024) :
    idx_main_v9 (idx_main_v10 (ix3 b τ j)) = ix1 j :=
  funext fun a => Fin.ext (by match a with | ⟨0, _⟩ => rfl)

/-- The reconstruction's residual against the target row. -/
theorem residualMax_apply (s t : (⟨S8x4096x1024, .f32⟩ : BufTy).Contents (Elt Ideal)) (W1 : (⟨S1024x256, .f32⟩ : BufTy).Contents (Elt Ideal))
    (b1 : (⟨S256, .f32⟩ : BufTy).Contents (Elt Ideal)) (W2 : (⟨S256x1024, .f32⟩ : BufTy).Contents (Elt Ideal))
    (b2 : (⟨S1024, .f32⟩ : BufTy).Contents (Elt Ideal)) (b : Fin 8) (τ : Fin 4096) (j : Fin 1024) :
    val_main_v12 (F := Ideal) s t W1 b1 W2 b2 (ix3 b τ j)
      = residualMax (fun k => s (ix3 b τ k)) (fun k => t (ix3 b τ k)) (fun k d => W1 (ix2 k d)) (fun d => b1 (ix1 d))
          (fun d j => W2 (ix2 d j)) (fun j => b2 (ix1 j)) j := by
  rw [val_main_v12_apply, val_main_v11_apply, val_main_v8_apply, val_main_v10_apply, val_main_v9_apply]
  simp only [lidx_v8, ridx_v8, idx_v10_v9, reluMax_apply, Ideal.addf_def, Ideal.subf_def]
  rfl

/-- The residual's cotangent: `(1/N) · (2 · residual)`. -/
theorem cotangent_apply (s t : (⟨S8x4096x1024, .f32⟩ : BufTy).Contents (Elt Ideal)) (W1 : (⟨S1024x256, .f32⟩ : BufTy).Contents (Elt Ideal))
    (b1 : (⟨S256, .f32⟩ : BufTy).Contents (Elt Ideal)) (W2 : (⟨S256x1024, .f32⟩ : BufTy).Contents (Elt Ideal))
    (b2 : (⟨S1024, .f32⟩ : BufTy).Contents (Elt Ideal)) (b : Fin 8) (τ : Fin 4096) (j : Fin 1024) :
    val_main_v32 (F := Ideal) s t W1 b1 W2 b2 (ix3 b τ j)
      = cotangent (fun k => s (ix3 b τ k)) (fun k => t (ix3 b τ k)) (fun k d => W1 (ix2 k d)) (fun d => b1 (ix1 d))
          (fun d j => W2 (ix2 d j)) (fun j => b2 (ix1 j)) j := by
  rw [val_main_v32_apply, val_main_v31_apply, val_main_v30_apply, val_main_cst_11_apply, val_main_cst_12_apply,
    val_main_v15_apply, val_main_v14_apply, val_main_cst_1_apply, residualMax_apply]
  simp only [Ideal.mulf_def, Ideal.hostDivf_def, Ideal.ofBits_def]
  rfl

theorem lidx_v33 (b : Fin 8) (τ : Fin 4096) (d : Fin 256) (j : Fin 1024) :
    lidx_main_v33 (ix3 b τ d) j = ix3 b τ j :=
  funext fun a => Fin.ext (by match a with | ⟨0, _⟩ => rfl | ⟨1, _⟩ => rfl | ⟨2, _⟩ => rfl)

theorem ridx_v33 (b : Fin 8) (τ : Fin 4096) (d : Fin 256) (j : Fin 1024) :
    ridx_main_v33 (ix3 b τ d) j = ix2 d j :=
  funext fun a => Fin.ext (by match a with | ⟨0, _⟩ => rfl | ⟨1, _⟩ => rfl)

/-- The cotangent carried back to the hidden units and gated. -/
theorem backMax_apply (s t : (⟨S8x4096x1024, .f32⟩ : BufTy).Contents (Elt Ideal)) (W1 : (⟨S1024x256, .f32⟩ : BufTy).Contents (Elt Ideal))
    (b1 : (⟨S256, .f32⟩ : BufTy).Contents (Elt Ideal)) (W2 : (⟨S256x1024, .f32⟩ : BufTy).Contents (Elt Ideal))
    (b2 : (⟨S1024, .f32⟩ : BufTy).Contents (Elt Ideal)) (b : Fin 8) (τ : Fin 4096) (d : Fin 256) :
    val_main_v35 (F := Ideal) s t W1 b1 W2 b2 (ix3 b τ d)
      = backMax (fun k => s (ix3 b τ k)) (fun k => t (ix3 b τ k)) (fun k d => W1 (ix2 k d)) (fun d => b1 (ix1 d))
          (fun d j => W2 (ix2 d j)) (fun j => b2 (ix1 j)) d := by
  rw [val_main_v35_apply, gate_apply, val_main_v33_apply, val_main_v34_apply, val_main_cst_13_apply]
  simp only [lidx_v33, ridx_v33, cotangent_apply, Ideal.ofBits_def]
  rfl

theorem lidx_v36 (b : Fin 8) (τ : Fin 4096) (k : Fin 1024) (d : Fin 256) :
    lidx_main_v36 (ix3 b τ k) d = ix3 b τ d :=
  funext fun a => Fin.ext (by match a with | ⟨0, _⟩ => rfl | ⟨1, _⟩ => rfl | ⟨2, _⟩ => rfl)

theorem ridx_v36 (b : Fin 8) (τ : Fin 4096) (k : Fin 1024) (d : Fin 256) :
    ridx_main_v36 (ix3 b τ k) d = ix2 k d :=
  funext fun a => Fin.ext (by match a with | ⟨0, _⟩ => rfl | ⟨1, _⟩ => rfl)

/-- … and back to the row's entries. -/
theorem gradMax_apply (s t : (⟨S8x4096x1024, .f32⟩ : BufTy).Contents (Elt Ideal)) (W1 : (⟨S1024x256, .f32⟩ : BufTy).Contents (Elt Ideal))
    (b1 : (⟨S256, .f32⟩ : BufTy).Contents (Elt Ideal)) (W2 : (⟨S256x1024, .f32⟩ : BufTy).Contents (Elt Ideal))
    (b2 : (⟨S1024, .f32⟩ : BufTy).Contents (Elt Ideal)) (b : Fin 8) (τ : Fin 4096) (k : Fin 1024) :
    val_main_v36 (F := Ideal) s t W1 b1 W2 b2 (ix3 b τ k)
      = gradMax (fun k => s (ix3 b τ k)) (fun k => t (ix3 b τ k)) (fun k d => W1 (ix2 k d)) (fun d => b1 (ix1 d))
          (fun d j => W2 (ix2 d j)) (fun j => b2 (ix1 j)) k := by
  rw [val_main_v36_apply]
  simp only [lidx_v36, ridx_v36, backMax_apply]
  rfl

/-- The penalty's gradient at the point itself. -/
theorem penaltyGrad_apply (s : (⟨S8x4096x1024, .f32⟩ : BufTy).Contents (Elt Ideal)) (b : Fin 8) (τ : Fin 4096) (k : Fin 1024) :
    val_main_v29 (F := Ideal) s (ix3 b τ k) = penaltyGrad (fun k => s (ix3 b τ k)) k := by
  rw [val_main_v29_apply, val_main_v28_apply, val_main_v27_apply, val_main_v26_apply, val_main_cst_8_apply,
    val_main_cst_9_apply, val_main_cst_10_apply, val_main_v21_apply, val_main_v20_apply, val_main_cst_4_apply,
    val_main_v18_apply]
  simp only [Ideal.mulf_def, Ideal.hostDivf_def, Ideal.subf_def, Ideal.ofBits_def]
  rfl

/-- The reference's result at `(b, τ, k)` is the differentiated step of row `(b, τ)` of the state against row `(b, τ)` of
    the target, at column `k`. -/
theorem result_apply (s t : (⟨S8x4096x1024, .f32⟩ : BufTy).Contents (Elt Ideal)) (W1 : (⟨S1024x256, .f32⟩ : BufTy).Contents (Elt Ideal))
    (b1 : (⟨S256, .f32⟩ : BufTy).Contents (Elt Ideal)) (W2 : (⟨S256x1024, .f32⟩ : BufTy).Contents (Elt Ideal))
    (b2 : (⟨S1024, .f32⟩ : BufTy).Contents (Elt Ideal)) (step : (⟨S_, .f32⟩ : BufTy).Contents (Elt Ideal))
    (b : Fin 8) (τ : Fin 4096) (k : Fin 1024) :
    val_main_v40 (F := Ideal) s t W1 b1 W2 b2 step (ix3 b τ k)
      = autodiffRow (fun k => s (ix3 b τ k)) (fun k => t (ix3 b τ k)) (fun k d => W1 (ix2 k d)) (fun d => b1 (ix1 d))
          (fun d j => W2 (ix2 d j)) (fun j => b2 (ix1 j)) (step ix0) k := by
  rw [val_main_v40_apply, val_main_v39_apply, val_main_v38_apply, val_main_v37_apply, penaltyGrad_apply, gradMax_apply]
  simp only [Ideal.subf_def, Ideal.mulf_def, Ideal.addf_def]
  rfl

end Cert.ReferenceIdeal.RowValue

end
-- ==== Proof.lean ====
/-
  One gradient-descent step of a two-layer perceptron's squared reconstruction error, fused into one kernel over blocks
  of 256 token rows, against the same step obtained by differentiating the loss (the mean squared error plus a penalty
  `λ·mean((s − s₀)²)` taken at `s = s₀`).

  Per token row `x` with target `y`: `hidden = x·W1 + b1`, `pred = relu(hidden)·W2 + b2`, and the new row is
  `x − step · gradient`. The kernel carries the residual `pred − y` back through `W2ᵀ`, the gate "hidden > 0" and `W1ᵀ` and
  scales the result once by 2⁻²⁴ (= 2/N for the N = 2²⁵ entries of the array); the differentiated program scales the
  residual first, by `(1/N)·(2·residual)`, and adds the penalty's gradient `((λ·1)/N)·(2·(x − x))`.

  * Every entry of either result depends on ONE token row and the whole weights: `Spec` states the two arrangements as
    functions of a row.
  * `Payload`: the kernel body's output block at `(p, q)` is the fused arrangement of the block's row `p` (four matrix
    products read as plain sums; the narrowings are the identity on extended reals).
  * `KernelValue`: the blocks tile the flattened `[8·4096, 1024]` array, row `b·4096 + τ` is token `(b, τ)`, so the kernel
    program's result at `(b, τ, k)` is the fused arrangement of row `(b, τ)`.
  * `RefRow`: the differentiated program's result at `(b, τ, k)` is the differentiated arrangement of row `(b, τ)`.
  * `Law`: 2⁻²⁴ is a nonnegative finite factor, and such a factor moves through products, finite sums of arbitrary
    extended reals and selects against zero, so the two arrangements agree wherever `x − x = 0`, that is on finite rows;
    `Finite` reads "the state's entries are real numbers" out of the precondition. No other input's finiteness is used.

  The three frames are the generated ones (the reference's: its generated run with the result dropped); the kernel's
  idealization rewrote nothing, so it preserves the kernel trivially.
-/
import proofs.«106871_j59133109731575_1_alg».proof.Defs
import proofs.«106871_j59133109731575_1_alg».proof.Proof.Gen.Kernel
import proofs.«106871_j59133109731575_1_alg».proof.Proof.Gen.Kernel.Skeleton
import proofs.«106871_j59133109731575_1_alg».proof.Proof.Gen.Kernel.Launch
import proofs.«106871_j59133109731575_1_alg».proof.Proof.Gen.Kernel.Points
import proofs.«106871_j59133109731575_1_alg».proof.Proof.Gen.Kernel.Frame
import proofs.«106871_j59133109731575_1_alg».proof.Proof.Gen.KernelIdeal
import proofs.«106871_j59133109731575_1_alg».proof.Proof.Gen.KernelIdeal.Skeleton
import proofs.«106871_j59133109731575_1_alg».proof.Proof.Gen.KernelIdeal.Launch
import proofs.«106871_j59133109731575_1_alg».proof.Proof.Gen.KernelIdeal.Points
import proofs.«106871_j59133109731575_1_alg».proof.Proof.Gen.KernelIdeal.Frame
import proofs.«106871_j59133109731575_1_alg».proof.Proof.Gen.ReferenceIdeal
import proofs.«106871_j59133109731575_1_alg».proof.Proof.Gen.Pre_finite_inputs
import proofs.«106871_j59133109731575_1_alg».proof.Proof.Gen.ReferenceIdeal.Run
import proofs.«106871_j59133109731575_1_alg».proof.Proof.Gen.ReferenceIdeal.Read
import proofs.«106871_j59133109731575_1_alg».proof.Proof.Spec
import proofs.«106871_j59133109731575_1_alg».proof.Proof.Law
import proofs.«106871_j59133109731575_1_alg».proof.Proof.Finite
import proofs.«106871_j59133109731575_1_alg».proof.Proof.KernelValue
import proofs.«106871_j59133109731575_1_alg».proof.Proof.RefRow
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the fused step of every token row: the kernel's by
    its blocks, the differentiated program's because the two arrangements agree on the state's finite rows. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v40_eq, a0, a1, a2, a3, a4, a5, a6]
  funext i
  obtain ⟨b, τ, k, rfl⟩ : ∃ (b : Fin 8) (τ : Fin 4096) (k : Fin 1024), i = ix3 b τ k := ⟨i 0, i 1, i 2, eq_ix3 i⟩
  rw [Cert.ReferenceIdeal.RowValue.result_apply]
  exact Cert.TwoLayerStep.autodiffRow_eq_fusedRow _ _ _ _ _ _ _ k
    (Cert.Pre_finite_inputs.Reading.state_real _ _ _ _ _ _ _ (hpre c) (ix3 b τ k))

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
